-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_arg5 : FVec F S64x64 .f32) (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x512 .f32) (main_arg1 : FVec F S512x128 .f32) (main_arg2 : FVec F S128 .f32) (main_arg3 : FVec F S128x64 .f32) (main_arg4 : FVec F S64 .f32) (main_arg5 : FVec F S64x64 .f32) (main_arg6 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_v13 main_v16
-- ==== Kernel.lean ====
abbrev S100000x512 : Shape := ⟨2, ![100000, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S1x128 : Shape := ⟨2, ![1, 128]⟩
abbrev S1x64 : Shape := ⟨2, ![1, 64]⟩
abbrev S64x100000 : Shape := ⟨2, ![64, 100000]⟩
abbrev S6400x512 : Shape := ⟨2, ![6400, 512]⟩
abbrev S64x12800 : Shape := ⟨2, ![64, 12800]⟩
abbrev S6400x128 : Shape := ⟨2, ![6400, 128]⟩
abbrev S6400x64 : Shape := ⟨2, ![6400, 64]⟩
abbrev S64x6400 : Shape := ⟨2, ![64, 6400]⟩
abbrev S100000x64 : Shape := ⟨2, ![100000, 64]⟩

abbrev nBuf : Space → Nat
  | .hbm => 13
  | .vmem => 12
  | .smem => 0
  | _ => 0

abbrev bufTy : (tb : Table) → Fin (tcTables nBuf tb) → BufTy
  | .hbm, ⟨0, _⟩ => ⟨S100000x512, .f32⟩
  | .hbm, ⟨1, _⟩ => ⟨S512x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S1x128, .f32⟩
  | .hbm, ⟨9, _⟩ => ⟨S1x64, .f32⟩
  | .hbm, ⟨10, _⟩ => ⟨S1x64, .f32⟩
  | .hbm, ⟨11, _⟩ => ⟨S64x100000, .f32⟩
  | .hbm, ⟨12, _⟩ => ⟨S100000x64, .f32⟩
  | .local _ .vmem, ⟨0, _⟩ => ⟨S6400x512, .f32⟩
  | .local _ .vmem, ⟨1, _⟩ => ⟨S6400x512, .f32⟩
  | .local _ .vmem, ⟨2, _⟩ => ⟨S6400x512, .f32⟩
  | .local _ .vmem, ⟨3, _⟩ => ⟨S6400x512, .f32⟩
  | .local _ .vmem, ⟨4, _⟩ => ⟨S512x128, .f32⟩
  | .local _ .vmem, ⟨5, _⟩ => ⟨S1x128, .f32⟩
  | .local _ .vmem, ⟨6, _⟩ => ⟨S64x128, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x12800, .f32⟩
  | .local _ .vmem, ⟨11, _⟩ => ⟨S64x12800, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S6400x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x12800 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S128x64_S64x128_1_0 : S128x64.Transposes [1, 0] S64x128
  shapeCasts_S128_S1x128 : S128.ShapeCasts S1x128
  shapeCasts_S64_S1x64 : S64.ShapeCasts S1x64
  inb_S512x128_S512x128_0_0 : ∀ a, (![0, 0] : Fin 2 → Nat) a + S512x128.size a ≤ S512x128.size a
  h_S512x128 : 0 < S512x128.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  transposes_S64x128_p1_0_S128x64 : S64x128.Transposes [1, 0] S128x64
  inb_S64x64_S64x64_0_0 : ∀ a, (![0, 0] : Fin 2 → Nat) a + S64x64.size a ≤ S64x64.size a
  h_S64x64 : 0 < S64x64.numel
  inb_S6400x512_S6400x512_0_0 : ∀ a, (![0, 0] : Fin 2 → Nat) a + S6400x512.size a ≤ S6400x512.size a
  h_S6400x512 : 0 < S6400x512.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  transposes_S6400x64_p1_0_S64x6400 : S6400x64.Transposes [1, 0] S64x6400
  inb_S64x12800_S64x6400_0_0 : ∀ a, (![0, 0] : Fin 2 → Nat) a + S64x6400.size a ≤ S64x12800.size a
  h_S64x6400 : 0 < S64x6400.numel
  inb_S64x12800_S64x6400_0_6400 : ∀ a, (![0, 6400] : Fin 2 → Nat) a + S64x6400.size a ≤ S64x12800.size a
  transposes_S64x100000_S100000x64_1_0 : S64x100000.Transposes [1, 0] S100000x64
  dot_S6400x512_S512x128_S6400x128_1_0_0_1_n_n_wf : DotDims.WF S6400x512 S512x128 S6400x128 [1] [0] [0] [1] [] []
  dot_S6400x128_S128x64_S6400x64_1_0_0_1_n_n_wf : DotDims.WF S6400x128 S128x64 S6400x64 [1] [0] [0] [1] [] []
  dot_S6400x64_S64x64_S6400x64_1_0_0_1_n_n_wf : DotDims.WF S6400x64 S64x64 S6400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S6400x512.size a < S100000x512.size a
  hwx0_0 : ∀ i : grid0.Coords, EltTy.bits .f32 = 32 ∨ (Rect.unit (s := S100000x512) (fun a => cc0_transform_0 i a * S6400x512.size a) (fun a => (Pipeline.Clip.of (cc0_transform_0 i a) (S6400x512.size a) (S100000x512.size a)).extent (S6400x512.size a)) fun a => Pipeline.Clip.inb (Pipeline.Clip.ok_of (hstart0_0 i a))).WholeWords (EltTy.packing .f32)
  hwxs0_0 : ∀ i : grid0.Coords, EltTy.bits .f32 = 32 ∨ (Rect.unit (s := S6400x512) (fun _ => 0) (fun a => (Pipeline.Clip.of (cc0_transform_0 i a) (S6400x512.size a) (S100000x512.size a)).extent (S6400x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S6400x512.size a < S100000x512.size a
  hwx0_1 : ∀ i : grid0.Coords, EltTy.bits .f32 = 32 ∨ (Rect.unit (s := S100000x512) (fun a => cc0_transform_1 i a * S6400x512.size a) (fun a => (Pipeline.Clip.of (cc0_transform_1 i a) (S6400x512.size a) (S100000x512.size a)).extent (S6400x512.size a)) fun a => Pipeline.Clip.inb (Pipeline.Clip.ok_of (hstart0_1 i a))).WholeWords (EltTy.packing .f32)
  hwxs0_1 : ∀ i : grid0.Coords, EltTy.bits .f32 = 32 ∨ (Rect.unit (s := S6400x512) (fun _ => 0) (fun a => (Pipeline.Clip.of (cc0_transform_1 i a) (S6400x512.size a) (S100000x512.size a)).extent (S6400x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hstart0_8 : ∀ (i : grid0.Coords) a, cc0_transform_8 i a * S64x12800.size a < S64x100000.size a
  hwx0_8 : ∀ i : grid0.Coords, EltTy.bits .f32 = 32 ∨ (Rect.unit (s := S64x100000) (fun a => cc0_transform_8 i a * S64x12800.size a) (fun a => (Pipeline.Clip.of (cc0_transform_8 i a) (S64x12800.size a) (S64x100000.size a)).extent (S64x12800.size a)) fun a => Pipeline.Clip.inb (Pipeline.Clip.ok_of (hstart0_8 i a))).WholeWords (EltTy.packing .f32)
  hwxs0_8 : ∀ i : grid0.Coords, EltTy.bits .f32 = 32 ∨ (Rect.unit (s := S64x12800) (fun _ => 0) (fun a => (Pipeline.Clip.of (cc0_transform_8 i a) (S64x12800.size a) (S64x100000.size a)).extent (S64x12800.size a)) fun a => (Nat.zero_add _).trans_le (Pipeline.Clip.extent_le (Pipeline.Clip.ok_of (hstart0_8 i a)))).WholeWords (EltTy.packing .f32)

variable [Facts₀]

def dot_S6400x512_S512x128_S6400x128_1_0_0_1_n_n : DotDims S6400x512 S512x128 S6400x128 where
  lhsContracting := [1]
  rhsContracting := [0]
  lhsNonContracting := [0]
  rhsNonContracting := [1]
  lhsBatch := []
  rhsBatch := []
  wf := dot_S6400x512_S512x128_S6400x128_1_0_0_1_n_n_wf
def dot_S6400x128_S128x64_S6400x64_1_0_0_1_n_n : DotDims S6400x128 S128x64 S6400x64 where
  lhsContracting := [1]
  rhsContracting := [0]
  lhsNonContracting := [0]
  rhsNonContracting := [1]
  lhsBatch := []
  rhsBatch := []
  wf := dot_S6400x128_S128x64_S6400x64_1_0_0_1_n_n_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf

abbrev win0_0 : Pipeline.Window sig grid0 :=
  Pipeline.Window.ofSpecClip (Memref.whole main_arg0) S6400x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg0) S6400x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg1) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpecClip (Memref.whole main_v4) S64x12800.size cc0_transform_8 reads0_8 true false 2 stage0_8 sem0_8
    hrank0 hreads0_8 hstart0_8 nbuf0_8 (Memref.isWhole_whole _) hwx0_8 hwxs0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x512 : Shape := ⟨2, ![100000, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S100000x128 : Shape := ⟨2, ![100000, 128]⟩
abbrev S1x128 : Shape := ⟨2, ![1, 128]⟩
abbrev S_ : Shape := ⟨0, ![]⟩
abbrev S100000x64 : Shape := ⟨2, ![100000, 64]⟩
abbrev S1x64 : Shape := ⟨2, ![1, 64]⟩

abbrev nBuf : Space → Nat
  | .hbm => 25
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S100000x128, .f32⟩
  | .hbm, ⟨8, _⟩ => ⟨S1x128, .f32⟩
  | .hbm, ⟨9, _⟩ => ⟨S100000x128, .f32⟩
  | .hbm, ⟨10, _⟩ => ⟨S100000x128, .f32⟩
  | .hbm, ⟨11, _⟩ => ⟨S_, .f32⟩
  | .hbm, ⟨12, _⟩ => ⟨S100000x128, .f32⟩
  | .hbm, ⟨13, _⟩ => ⟨S100000x128, .f32⟩
  | .hbm, ⟨14, _⟩ => ⟨S100000x64, .f32⟩
  | .hbm, ⟨15, _⟩ => ⟨S1x64, .f32⟩
  | .hbm, ⟨16, _⟩ => ⟨S100000x64, .f32⟩
  | .hbm, ⟨17, _⟩ => ⟨S100000x64, .f32⟩
  | .hbm, ⟨18, _⟩ => ⟨S_, .f32⟩
  | .hbm, ⟨19, _⟩ => ⟨S100000x64, .f32⟩
  | .hbm, ⟨20, _⟩ => ⟨S100000x64, .f32⟩
  | .hbm, ⟨21, _⟩ => ⟨S100000x64, .f32⟩
  | .hbm, ⟨22, _⟩ => ⟨S1x64, .f32⟩
  | .hbm, ⟨23, _⟩ => ⟨S100000x64, .f32⟩
  | .hbm, ⟨24, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  dot_S100000x512_S512x128_S100000x128_1_0_0_1_n_n_wf : DotDims.WF S100000x512 S512x128 S100000x128 [1] [0] [0] [1] [] []
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Frame.Body.lean ====
/-
  The kernel body, run once on whole staging buffers. It loads the weights, the biases and the two row blocks, and
  stores the transposed results of the three layers on the first row block into the left 6400 columns of the
  64 × 12800 output block and those on the second into the right 6400 columns. The inputs are left as they were; the
  output block ends at a function of what the eight input buffers held (its two stores, which tile it), whatever it
  held before.
-/
import proofs.«152506_g49632642072955_cont_8to1_c_73_15_alg».proof.Proof.Gen.KernelIdeal.Launch
import proofs.«152506_g49632642072955_cont_8to1_c_73_15_alg».proof.Proof.Gen.KernelIdeal.Points
import proofs.«152506_g49632642072955_cont_8to1_c_73_15_alg».proof.Proof.Gen.KernelIdeal.Skeleton
import Idealize.ShloMosaic.Lib.Pipeline.Kit
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: every load reads a whole staging buffer; the two stores write the left and the
right half (6400 columns each) of the 64 × 12800 output block. -/

abbrev rX : Rect S6400x512 := Rect.unit (s := S6400x512) ![0, 0] S6400x512.size inb_S6400x512_S6400x512_0_0
abbrev rW1 : Rect S512x128 := Rect.unit (s := S512x128) ![0, 0] S512x128.size inb_S512x128_S512x128_0_0
abbrev rC1 : Rect S1x128 := Rect.unit (s := S1x128) ![0, 0] S1x128.size inb_S1x128_S1x128_0_0
abbrev rW2 : Rect S64x128 := Rect.unit (s := S64x128) ![0, 0] S64x128.size inb_S64x128_S64x128_0_0
abbrev rC2 : Rect S1x64 := Rect.unit (s := S1x64) ![0, 0] S1x64.size inb_S1x64_S1x64_0_0
abbrev rC3 : Rect S1x64 := rC2
abbrev rW3 : Rect S64x64 := Rect.unit (s := S64x64) ![0, 0] S64x64.size inb_S64x64_S64x64_0_0
abbrev rLeft : Rect S64x12800 := Rect.unit (s := S64x12800) ![0, 0] S64x6400.size inb_S64x12800_S64x6400_0_0
abbrev rRight : Rect S64x12800 := Rect.unit (s := S64x12800) ![0, 6400] S64x6400.size inb_S64x12800_S64x6400_0_6400

/-- What the body leaves in the output block, as a function of what the eight input buffers hold: the right half
    is the three layers applied to the second row block, the left half the same of the first (pieces last first). -/
def outBlock (x0 x1 : Vec F S6400x512 .f32) (x2 : Vec F S512x128 .f32) (x3 : Vec F S1x128 .f32) (x4 : Vec F S64x128 .f32)
    (x5 : Vec F S1x64 .f32) (x6 : Vec F S64x64 .f32) (x7 : Vec F S1x64 .f32) : Vec F S64x12800 .f32 :=
  View.canon [⟨rRight, k0_pay1 (k0_pay2 (View.ld x4 rW2)) (View.ld x6 rW3) (k0_pay4 (View.ld x2 rW1) (View.ld x1 rX)) (k0_pay5 (View.ld x3 rC1)) (View.ld x5 rC2) (View.ld x7 rC3)⟩,
    ⟨rLeft, k0_pay3 (View.ld x2 rW1) (View.ld x4 rW2) (View.ld x6 rW3) (View.ld x0 rX) (View.ld x3 rC1) (View.ld x5 rC2) (View.ld x7 rC3)⟩]

/-- The two halves tile the block. -/
theorem cover_out (p0 p1 : Vec F S64x6400 .f32) (y : S64x12800.Idx) :
    ∃ pc ∈ ([⟨rRight, p0⟩, ⟨rLeft, p1⟩] : List (View.Piece (Elt F) S64x12800 .f32)), y ∈ pc.1.set :=
  View.cover_of_tiled [⟨rRight, p0⟩, ⟨rLeft, p1⟩] S64x6400.size (by rfl) y

set_option maxHeartbeats 4000000 in
/-- The body on whole staging buffers: the eight inputs are read and left as they were, the output block ends at
    `outBlock` of what they hold, whatever it held. -/
theorem sound_kernel (c : Dev nD) (E : Set ℕ) (i : grid0.Coords)
    (arg1 : Memref sig .tc .vmem S6400x512 .f32) (harg1 : arg1.IsWhole) (arg2 : Memref sig .tc .vmem S6400x512 .f32) (harg2 : arg2.IsWhole)
    (arg3 : Memref sig .tc .vmem S512x128 .f32) (harg3 : arg3.IsWhole) (arg4 : Memref sig .tc .vmem S1x128 .f32) (harg4 : arg4.IsWhole)
    (arg5 : Memref sig .tc .vmem S64x128 .f32) (harg5 : arg5.IsWhole) (arg6 : Memref sig .tc .vmem S1x64 .f32) (harg6 : arg6.IsWhole)
    (arg7 : Memref sig .tc .vmem S64x64 .f32) (harg7 : arg7.IsWhole) (arg8 : Memref sig .tc .vmem S1x64 .f32) (harg8 : arg8.IsWhole)
    (arg9 : Memref sig .tc .vmem S64x12800 .f32) (harg9 : arg9.IsWhole)
    (x0 x1 : Vec F S6400x512 .f32) (x2 : Vec F S512x128 .f32) (x3 : Vec F S1x128 .f32) (x4 : Vec F S64x128 .f32)
    (x5 : Vec F S1x64 .f32) (x6 : Vec F S64x64 .f32) (x7 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (outBlock x0 x1 x2 x3 x4 x5 x6 x7)) -∗ K ⟨⟩))
      ⊢ wp frame (wpE (defs₀ (F := F)) Variants.none c none) E
          (cc0__mlp_block_kernel i arg1 harg1 arg2 harg2 arg3 harg3 arg4 harg4 arg5 harg5 arg6 harg6 arg7 harg7 arg8 harg8 arg9 harg9) K := by
  simp only [cc0__mlp_block_kernel_eq_skeleton]; unfold cc0__mlp_block_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover_out _ _)

end Cert.KernelIdeal.Run

end
-- ==== Proof.Frame.Dats.lean ====
/-
  What each staging buffer holds at each of the eight grid points. An input buffer holds its window's block of the
  array as the region finds it: on the part of the block inside the array (the last odd row block overhangs the
  100000 rows by 2400), with what the buffer held before elsewhere; the weights' and biases' windows are their whole
  arrays. The output buffer holds the body's function of those. The body's run at a point then gives the pipeline's
  obligation, either with the output's contents named — under the hypothesis that the part of the output block inside
  the array does not depend on the rows past the array's end — or with the output forgotten.
-/
import proofs.«152506_g49632642072955_cont_8to1_c_73_15_alg».proof.Proof.Frame.Body

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffers as the region finds them: the launch contents after the host operations before it (the
    second weight transposed, the three biases reshaped to rows). -/
abbrev V (c : Dev nD) (b : Ref sig .tc) : Buf (Elt F) ((c : Thread nD τ).loc b) :=
  StableHlo.after ([hostOps0] : List (List (HloOp τ sig (Elt F)))).flatten (fun b => m (c, b)) b

theorem hfresh0 : (hostOps0 : List (HloOp τ sig (Elt F))).Forall fun op => op.fresh = ∅ := ⟨rfl, rfl, rfl, rfl⟩

/-- The program is: the host operations, the region, the final transposition. -/
theorem hmain (𝒱₀ : Variants) : Pipeline.HMainK (Ix := Unit) (Name := ℕ) (U := UR sig nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0] [hostOps1] hostOps0_sub hfresh0 (fun c => (main_chain c).trans rfl)

/-! ## The windows' blocks -/

/-- Window `w`'s block at point `t`, its part inside the array, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer at point `t`: its block, filled out past the array's end (where there is such a part) with the zero word. -/
def in0 (c : Dev nD) (t : Fin cfg0.N) : S6400x512.Idx → Elt F .f32 :=
  win0_0.fill (grid0.coords t) (fun _ => Scalar.ofBits .f32 0#32) (iblk m c 0 t)
/-- Input window 1's staging buffer at point `t`: its block, filled out past the array's end (where there is such a part) with the zero word. -/
def in1 (c : Dev nD) (t : Fin cfg0.N) : S6400x512.Idx → Elt F .f32 :=
  win0_1.fill (grid0.coords t) (fun _ => Scalar.ofBits .f32 0#32) (iblk m c 1 t)
/-- Input window 2's staging buffer at point `t`: its block, filled out past the array's end (where there is such a part) with the zero word. -/
def in2 (c : Dev nD) (t : Fin cfg0.N) : S512x128.Idx → Elt F .f32 :=
  win0_2.fill (grid0.coords t) (fun _ => Scalar.ofBits .f32 0#32) (iblk m c 2 t)
/-- Input window 3's staging buffer at point `t`: its block, filled out past the array's end (where there is such a part) with the zero word. -/
def in3 (c : Dev nD) (t : Fin cfg0.N) : S1x128.Idx → Elt F .f32 :=
  win0_3.fill (grid0.coords t) (fun _ => Scalar.ofBits .f32 0#32) (iblk m c 3 t)
/-- Input window 4's staging buffer at point `t`: its block, filled out past the array's end (where there is such a part) with the zero word. -/
def in4 (c : Dev nD) (t : Fin cfg0.N) : S64x128.Idx → Elt F .f32 :=
  win0_4.fill (grid0.coords t) (fun _ => Scalar.ofBits .f32 0#32) (iblk m c 4 t)
/-- Input window 5's staging buffer at point `t`: its block, filled out past the array's end (where there is such a part) with the zero word. -/
def in5 (c : Dev nD) (t : Fin cfg0.N) : S1x64.Idx → Elt F .f32 :=
  win0_5.fill (grid0.coords t) (fun _ => Scalar.ofBits .f32 0#32) (iblk m c 5 t)
/-- Input window 6's staging buffer at point `t`: its block, filled out past the array's end (where there is such a part) with the zero word. -/
def in6 (c : Dev nD) (t : Fin cfg0.N) : S64x64.Idx → Elt F .f32 :=
  win0_6.fill (grid0.coords t) (fun _ => Scalar.ofBits .f32 0#32) (iblk m c 6 t)
/-- Input window 7's staging buffer at point `t`: its block, filled out past the array's end (where there is such a part) with the zero word. -/
def in7 (c : Dev nD) (t : Fin cfg0.N) : S1x64.Idx → Elt F .f32 :=
  win0_7.fill (grid0.coords t) (fun _ => Scalar.ofBits .f32 0#32) (iblk m c 7 t)

/-- The proof data: the arrays as the region finds them; each input buffer at its block; the output buffer at the
    body's function of those; the row array read through two windows held half and half. -/
def dats (_ : Fin 1) (c : Dev nD) : Dat τ (Elt F) Unit ℕ (UR sig nD τ) ℕ cfg0 c where
  A w := V m c (Pipeline.arrRef spec0 w)
  after w t := match w with
    | ⟨0, _⟩ => in0 m c t
    | ⟨1, _⟩ => in1 m c t
    | ⟨2, _⟩ => in2 m c t
    | ⟨3, _⟩ => in3 m c t
    | ⟨4, _⟩ => in4 m c t
    | ⟨5, _⟩ => in5 m c t
    | ⟨6, _⟩ => in6 m c t
    | ⟨7, _⟩ => in7 m c t
    | ⟨8, _⟩ => outBlock (in0 m c t) (in1 m c t) (in2 m c t) (in3 m c t) (in4 m c t) (in5 m c t) (in6 m c t) (in7 m c t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = in0 m c t := by dsimp only [dats]
theorem after_1 (c : Dev nD) (t : Fin cfg0.N) : (dats m 0 c).after 1 t = in1 m c t := by dsimp only [dats]
theorem after_2 (c : Dev nD) (t : Fin cfg0.N) : (dats m 0 c).after 2 t = in2 m c t := by dsimp only [dats]
theorem after_3 (c : Dev nD) (t : Fin cfg0.N) : (dats m 0 c).after 3 t = in3 m c t := by dsimp only [dats]
theorem after_4 (c : Dev nD) (t : Fin cfg0.N) : (dats m 0 c).after 4 t = in4 m c t := by dsimp only [dats]
theorem after_5 (c : Dev nD) (t : Fin cfg0.N) : (dats m 0 c).after 5 t = in5 m c t := by dsimp only [dats]
theorem after_6 (c : Dev nD) (t : Fin cfg0.N) : (dats m 0 c).after 6 t = in6 m c t := by dsimp only [dats]
theorem after_7 (c : Dev nD) (t : Fin cfg0.N) : (dats m 0 c).after 7 t = in7 m c t := by dsimp only [dats]
theorem after_8 (c : Dev nD) (t : Fin cfg0.N) : (dats m 0 c).after 8 t
    = outBlock (in0 m c t) (in1 m c t) (in2 m c t) (in3 m c t) (in4 m c t) (in5 m c t) (in6 m c t) (in7 m c t) := by dsimp only [dats]

/-- Input window 0's buffer holds its block at every point, fetched there or not. -/
theorem before_0 (c : Dev nD) (t : Fin cfg0.N) (d) : (dats m 0 c).before 0 t d = (dats m 0 c).fetched 0 t d :=
  (dats m 0 c).before_in_eq_fetched 0 rfl (fun _ => rfl)
    (fun t t' h => by funext a; show Pipeline.Clip.of (win0_0.index t a) _ _ = Pipeline.Clip.of (win0_0.index t' a) _ _; rw [h])
    (fun t => by rw [after_0]; exact win0_0.cut_fill _ _ _) t d
/-- Input window 1's buffer holds its block at every point, fetched there or not. -/
theorem before_1 (c : Dev nD) (t : Fin cfg0.N) (d) : (dats m 0 c).before 1 t d = (dats m 0 c).fetched 1 t d :=
  (dats m 0 c).before_in_eq_fetched 1 rfl (fun _ => rfl)
    (fun t t' h => by funext a; show Pipeline.Clip.of (win0_1.index t a) _ _ = Pipeline.Clip.of (win0_1.index t' a) _ _; rw [h])
    (fun t => by rw [after_1]; exact win0_1.cut_fill _ _ _) t d
/-- Input window 2's buffer holds its block at every point, fetched there or not. -/
theorem before_2 (c : Dev nD) (t : Fin cfg0.N) (d) : (dats m 0 c).before 2 t d = (dats m 0 c).fetched 2 t d :=
  (dats m 0 c).before_in_eq_fetched 2 rfl (fun _ => rfl)
    (fun _ _ _ => rfl)
    (fun t => by rw [after_2]; exact win0_2.cut_fill _ _ _) t d
/-- Input window 3's buffer holds its block at every point, fetched there or not. -/
theorem before_3 (c : Dev nD) (t : Fin cfg0.N) (d) : (dats m 0 c).before 3 t d = (dats m 0 c).fetched 3 t d :=
  (dats m 0 c).before_in_eq_fetched 3 rfl (fun _ => rfl)
    (fun _ _ _ => rfl)
    (fun t => by rw [after_3]; exact win0_3.cut_fill _ _ _) t d
/-- Input window 4's buffer holds its block at every point, fetched there or not. -/
theorem before_4 (c : Dev nD) (t : Fin cfg0.N) (d) : (dats m 0 c).before 4 t d = (dats m 0 c).fetched 4 t d :=
  (dats m 0 c).before_in_eq_fetched 4 rfl (fun _ => rfl)
    (fun _ _ _ => rfl)
    (fun t => by rw [after_4]; exact win0_4.cut_fill _ _ _) t d
/-- Input window 5's buffer holds its block at every point, fetched there or not. -/
theorem before_5 (c : Dev nD) (t : Fin cfg0.N) (d) : (dats m 0 c).before 5 t d = (dats m 0 c).fetched 5 t d :=
  (dats m 0 c).before_in_eq_fetched 5 rfl (fun _ => rfl)
    (fun _ _ _ => rfl)
    (fun t => by rw [after_5]; exact win0_5.cut_fill _ _ _) t d
/-- Input window 6's buffer holds its block at every point, fetched there or not. -/
theorem before_6 (c : Dev nD) (t : Fin cfg0.N) (d) : (dats m 0 c).before 6 t d = (dats m 0 c).fetched 6 t d :=
  (dats m 0 c).before_in_eq_fetched 6 rfl (fun _ => rfl)
    (fun _ _ _ => rfl)
    (fun t => by rw [after_6]; exact win0_6.cut_fill _ _ _) t d
/-- Input window 7's buffer holds its block at every point, fetched there or not. -/
theorem before_7 (c : Dev nD) (t : Fin cfg0.N) (d) : (dats m 0 c).before 7 t d = (dats m 0 c).fetched 7 t d :=
  (dats m 0 c).before_in_eq_fetched 7 rfl (fun _ => rfl)
    (fun _ _ _ => rfl)
    (fun t => by rw [after_7]; exact win0_7.cut_fill _ _ _) t d

/-- A buffer just fetched into holds the block on the part inside the array and what it held elsewhere. -/
theorem fetched_eq (c : Dev nD) (w : Fin cfg0.W) (t : Fin cfg0.N) (d) :
    (dats m 0 c).fetched w t d = (cfg0.win w).fill (cfg0.grid.coords t) d (iblk m c w t) := by
  unfold Dat.fetched Dat.blockOf iblk; rw [A_eq]

/-- Window 2's blocks are the whole array: a fetch leaves nothing of what the buffer held. -/
theorem fetched_2 (c : Dev nD) (t : Fin cfg0.N) (d) : (dats m 0 c).fetched 2 t d = in2 m c t :=
  ((dats m 0 c).fetched_of_clip_none 2 t (fun _ => rfl) d _).trans (fetched_eq m c 2 t _)
/-- Window 3's blocks are the whole array: a fetch leaves nothing of what the buffer held. -/
theorem fetched_3 (c : Dev nD) (t : Fin cfg0.N) (d) : (dats m 0 c).fetched 3 t d = in3 m c t :=
  ((dats m 0 c).fetched_of_clip_none 3 t (fun _ => rfl) d _).trans (fetched_eq m c 3 t _)
/-- Window 4's blocks are the whole array: a fetch leaves nothing of what the buffer held. -/
theorem fetched_4 (c : Dev nD) (t : Fin cfg0.N) (d) : (dats m 0 c).fetched 4 t d = in4 m c t :=
  ((dats m 0 c).fetched_of_clip_none 4 t (fun _ => rfl) d _).trans (fetched_eq m c 4 t _)
/-- Window 5's blocks are the whole array: a fetch leaves nothing of what the buffer held. -/
theorem fetched_5 (c : Dev nD) (t : Fin cfg0.N) (d) : (dats m 0 c).fetched 5 t d = in5 m c t :=
  ((dats m 0 c).fetched_of_clip_none 5 t (fun _ => rfl) d _).trans (fetched_eq m c 5 t _)
/-- Window 6's blocks are the whole array: a fetch leaves nothing of what the buffer held. -/
theorem fetched_6 (c : Dev nD) (t : Fin cfg0.N) (d) : (dats m 0 c).fetched 6 t d = in6 m c t :=
  ((dats m 0 c).fetched_of_clip_none 6 t (fun _ => rfl) d _).trans (fetched_eq m c 6 t _)
/-- Window 7's blocks are the whole array: a fetch leaves nothing of what the buffer held. -/
theorem fetched_7 (c : Dev nD) (t : Fin cfg0.N) (d) : (dats m 0 c).fetched 7 t d = in7 m c t :=
  ((dats m 0 c).fetched_of_clip_none 7 t (fun _ => rfl) d _).trans (fetched_eq m c 7 t _)

/-! ## The body at a point -/

/-- What the body is called with: each input buffer at what the point finds there, the output buffer at anything. -/
def bodyPre (c : Dev nD) (t : Fin cfg0.N) : sProp 𝕄 :=
  iprop((∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ X, owns (c : Thread nD τ) (st0_8 t) fullShare X))

/-- What it returns of the inputs: the two row-block buffers still at their blocks on the part inside the array, the
    weights and biases at theirs. -/
def bodyPostIn (c : Dev nD) (t : Fin cfg0.N) : sProp 𝕄 :=
  iprop((∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- and of the output: the body's function of what the two row-block buffers held and of the weights and biases. -/
def bodyPostOut (c : Dev nD) (t : Fin cfg0.N) : sProp 𝕄 :=
  iprop(∃ d0 d1, owns (c : Thread nD τ) (st0_8 t) fullShare (outBlock ((dats m 0 c).fetched 0 t d0) ((dats m 0 c).fetched 1 t d1) (in2 m c t) (in3 m c t) (in4 m c t) (in5 m c t) (in6 m c t) (in7 m c t)))

theorem sound_body (c : Dev nD) (t : Fin cfg0.N) (K : PUnit → sProp 𝕄) :
    iprop(bodyPre m c t ∗ (iprop(bodyPostIn m c t ∗ bodyPostOut m c t) -∗ K ⟨⟩))
      ⊢ wp frame (wpE (defs₀ (F := F)) Variants.none c none) Set.univ (bodyAt0 t) K := by
  unfold bodyPre bodyPostIn bodyPostOut bodyAt0
  simp only [before_0, before_1, before_2, before_3, before_4, before_5, before_6, before_7,
    fetched_2, fetched_3, fetched_4, fetched_5, fetched_6, fetched_7]
  rw [after_0, after_1, after_2, after_3, after_4, after_5, after_6, after_7]
  iintro ⟨⟨⟨%d0, H0⟩, ⟨%d1, H1⟩, ⟨%d2, H2⟩, ⟨%d3, H3⟩, ⟨%d4, H4⟩, ⟨%d5, H5⟩, ⟨%d6, H6⟩, ⟨%d7, H7⟩, ⟨%X, H8⟩⟩, Hk⟩
  iapply (sound_kernel c Set.univ (grid0.coords t) _ _ _ _ _ _ _ _ _ _ _ _ _ _ _ _ _ _
    ((dats m 0 c).fetched 0 t d0) ((dats m 0 c).fetched 1 t d1) (in2 m c t) (in3 m c t) (in4 m c t) (in5 m c t) (in6 m c t) (in7 m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists X; iexact H8
  iintro ⟨H0, H1, H2, H3, H4, H5, H6, H7, H8⟩
  iapply Hk
  isplitr [H8]
  · isplitl [H0]
    · iexists d0
      rw [in0, win0_0.cut_fill, ← fetched_eq m c 0 t d0]; iexact H0
    isplitl [H1]
    · iexists d1
      rw [in1, win0_1.cut_fill, ← fetched_eq m c 1 t d1]; iexact H1
    isplitl [H2]; · iexact H2
    isplitl [H3]; · iexact H3
    isplitl [H4]; · iexact H4
    isplitl [H5]; · iexact H5
    isplitl [H6]; · iexact H6
    iexact H7
  · iexists d0; iexists d1; iexact H8

/-! ## The body obligation -/

/-- The output block's part inside the array does not depend on what the two row-block buffers hold past the array's
    end: the hypothesis under which the output's contents are named exactly. -/
def OutLocal : Prop := ∀ (c : Dev nD) (t : Fin cfg0.N) d0 d1,
  win0_8.cut (grid0.coords t) (outBlock ((dats m 0 c).fetched 0 t d0) ((dats m 0 c).fetched 1 t d1) (in2 m c t) (in3 m c t) (in4 m c t) (in5 m c t) (in6 m c t) (in7 m c t))
    = win0_8.cut (grid0.coords t) (outBlock (in0 m c t) (in1 m c t) (in2 m c t) (in3 m c t) (in4 m c t) (in5 m c t) (in6 m c t) (in7 m c t))

theorem body_obligation (hloc : OutLocal m) (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, H0, H1, H2, H3, H4, H5, H6, H7, ⟨%d8, H8⟩⟩
  iapply (sound_body m c t _)
  isplitl [H0 H1 H2 H3 H4 H5 H6 H7 H8]
  · unfold bodyPre
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  iintro ⟨Hin, Hout⟩
  isplitl [HΦ]; · iexact HΦ
  isplitl [Ho]; · iexact Ho
  unfold bodyPostIn bodyPostOut
  icases Hin with ⟨H0, H1, H2, H3, H4, H5, H6, H7⟩
  icases Hout with ⟨%d0, %d1, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists (outBlock ((dats m 0 c).fetched 0 t d0) ((dats m 0 c).fetched 1 t d1) (in2 m c t) (in3 m c t) (in4 m c t) (in5 m c t) (in6 m c t) (in7 m c t))
  rw [after_8, win0_8.fill_congr_cut (grid0.coords t) (hloc c t d0 d1)]
  iexact H8

/-- Which windows a frame proof forgets: the output. -/
abbrev fgtOut : Fin cfg0.W → Bool := fun | ⟨0, _⟩ => false | ⟨1, _⟩ => false | ⟨2, _⟩ => false | ⟨3, _⟩ => false | ⟨4, _⟩ => false | ⟨5, _⟩ => false | ⟨6, _⟩ => false | ⟨7, _⟩ => false | ⟨8, _⟩ => true | ⟨_ + 9, h⟩ => absurd h (Nat.not_lt.2 (Nat.le_add_left _ _))

/-- The obligation with the output forgotten: nothing is said of what the body leaves there. -/
theorem body_obligation_forget (c : Dev nD) :
    BodyObligationLoose (dats (F := F) m 0 c) (defs₀ (F := F)) Variants.none () Set.univ fgtOut := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, H0, H1, H2, H3, H4, H5, H6, H7, H8⟩
  iapply (sound_body m c t _)
  isplitl [H0 H1 H2 H3 H4 H5 H6 H7 H8]
  · unfold bodyPre
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro ⟨Hin, Hout⟩
  isplitl [HΦ]; · iexact HΦ
  isplitl [Ho]; · iexact Ho
  unfold bodyPostIn bodyPostOut
  icases Hin with ⟨H0, H1, H2, H3, H4, H5, H6, H7⟩
  icases Hout with ⟨%d0, %d1, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

end Cert.KernelIdeal.Run

end
-- ==== Proof.Frame.Launch.lean ====
/-
  The run of the whole program: host operations (a transposition, three reshapes), the pipelined region, a last
  transposition. The row array is read through two windows, so its points-to is split into two halves, one per
  window; every other array is held whole. After the region the last operation reads the output array and writes
  the result. Two runs: one naming every array's final contents (under the locality hypothesis), one forgetting the
  output, which holds at any float instance.
-/
import proofs.«152506_g49632642072955_cont_8to1_c_73_15_alg».proof.Proof.Frame.Dats

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: every staging cell's owner and a token for every transfer the pipeline issues. -/
def u₀ : UR sig nD τ := initOf (Pipeline.cells cfgs cellOf_inj) (Pipeline.launchToks cfgs cellOf_inj)

abbrev EP : Emb (UR sig nD τ) (MT nD τ sig Unit (Elt F) ℕ (UR sig nD τ) ℕ) := emb₁

/-! ## The arrays at entry: the row array, read through two windows, is split between them -/

theorem hsplit (c : Dev nD) :
    (Pipeline.arrBufs spec0 c (V m c) : sProp 𝕄) ⊢ (dats m 0 c).arrays ((dats m 0 c).arrAt · 0) := by
  classical
  unfold Pipeline.arrBufs Dat.arrays
  rw [bigSep_eq_bigSepL_of_eq [main_arg0, main_arg1, main_v1, main_v0, main_v2, main_arg5, main_v3, main_v4] (by decide) (by decide), bigSep_W0]
  rw [show (bigSepL [main_arg0, main_arg1, main_v1, main_v0, main_v2, main_arg5, main_v3, main_v4] (fun b => (((c : Thread nD τ).loc b) ↦{fullShare} V m c b : sProp 𝕄)))
      = iprop((((c : Thread nD τ).loc main_arg0) ↦{fullShare} V m c main_arg0) ∗ (((c : Thread nD τ).loc main_arg1) ↦{fullShare} V m c main_arg1) ∗ (((c : Thread nD τ).loc main_v1) ↦{fullShare} V m c main_v1) ∗ (((c : Thread nD τ).loc main_v0) ↦{fullShare} V m c main_v0) ∗ (((c : Thread nD τ).loc main_v2) ↦{fullShare} V m c main_v2) ∗ (((c : Thread nD τ).loc main_arg5) ↦{fullShare} V m c main_arg5) ∗ (((c : Thread nD τ).loc main_v3) ↦{fullShare} V m c main_v3) ∗ (((c : Thread nD τ).loc main_v4) ↦{fullShare} V m c main_v4)) from rfl]
  iintro ⟨Ha0, Ha1, Hv1, Hv0, Hv2, Ha5, Hv3, Hv4⟩
  ihave H := (pointsTo_share (PosShare.mem_left_op_right fullShare)).1 $$ Ha0
  icases H with ⟨Hl, Hr⟩
  isplitl [Hl]
  · rw [(arr_whole0 0).set_eq_univ]; iexact Hl
  isplitl [Hr]
  · rw [(arr_whole0 1).set_eq_univ]; iexact Hr
  isplitl [Ha1]
  · rw [(arr_whole0 2).set_eq_univ]; iexact Ha1
  isplitl [Hv1]
  · rw [(arr_whole0 3).set_eq_univ]; iexact Hv1
  isplitl [Hv0]
  · rw [(arr_whole0 4).set_eq_univ]; iexact Hv0
  isplitl [Hv2]
  · rw [(arr_whole0 5).set_eq_univ]; iexact Hv2
  isplitl [Ha5]
  · rw [(arr_whole0 6).set_eq_univ]; iexact Ha5
  isplitl [Hv3]
  · rw [(arr_whole0 7).set_eq_univ]; iexact Hv3
  · rw [(arr_whole0 8).set_eq_univ]; iexact Hv4

/-! ## The host operation after the region -/

/-- The result: the region's output array, transposed. -/
def resultT (c : Dev nD) : (⟨S100000x64, .f32⟩ : BufTy).Contents (Elt F) :=
  transpose S100000x64 [1, 0] (((dats m 0 c).arrAt 8 cfg0.N : Buf (Elt F) ((cfg0.win 8).arr.view.loc (c : Thread nD τ))) : (⟨S64x100000, .f32⟩ : BufTy).Contents (Elt F)) transposes_S64x100000_S100000x64_1_0

/-- The buffers no window stages, after the program: the bias and second-weight arguments as the region found them,
    the result at the transposed output. -/
def Zfin (c : Dev nD) : sProp 𝕄 :=
  iprop((((c : Thread nD τ).loc main_arg2) ↦{fullShare} V m c main_arg2) ∗ (((c : Thread nD τ).loc main_arg3) ↦{fullShare} V m c main_arg3)
    ∗ (((c : Thread nD τ).loc main_arg4) ↦{fullShare} V m c main_arg4) ∗ (((c : Thread nD τ).loc main_arg6) ↦{fullShare} V m c main_arg6)
    ∗ (((c : Thread nD τ).loc main_v5) ↦{fullShare} resultT m c))

/-- The valuation the last host operation runs in: the output array at what the region left, the rest as found. -/
def Wtail (c : Dev nD) : Valuation τ sig (Elt F) :=
  Function.update (StableHlo.after ([hostOps0] : List (List (HloOp τ sig (Elt F)))).flatten (fun b => m (c, b)))
    (Proc.devRef .tc main_v4) ((dats m 0 c).arrAt 8 cfg0.N)

set_option backward.isDefEq.respectTransparency.types false in
theorem htail (𝒱₀ : Variants) (c : Dev nD) (Q' : PUnit → sProp 𝕄) :
    iprop((iprop((dats m 0 c).arrays ((dats m 0 c).arrAt · cfg0.N) ∗ Zfin m c) -∗ Q' ⟨⟩)
        ∗ boundary (c : Thread nD τ) ∗ (dats m 0 c).arrays ((dats m 0 c).arrAt · cfg0.N) ∗ Pipeline.unscopedRest spec0 c (V m c))
      ⊢ wp frame (wpE (Pipeline.defs (pcfgs (F := F)) defs₀) (Variants.lift 𝒱₀) (c : Thread nD τ) none) Set.univ
          (Pipeline.chain ([hostOps1].map StableHlo.seq)) Q' := by
  classical
  have hne : (Proc.devRef (τ := τ) .tc main_v4) ∉ ({Proc.devRef (τ := τ) .tc main_v5} : Finset (DevRef τ sig)) := by decide
  have hW4 : Wtail m c (Proc.devRef .tc main_v4) = (dats m 0 c).arrAt 8 cfg0.N := Function.update_self ..
  have hW5 : Wtail m c (Proc.devRef .tc main_v5) = V m c main_v5 := Function.update_of_ne (by decide) ..
  have hheld : ∀ W : Valuation τ sig (Elt F), (StableHlo.held (c : Thread nD τ) ({Proc.devRef .tc main_v4, Proc.devRef .tc main_v5} : Finset (DevRef τ sig)) W : sProp 𝕄)
      = iprop((((c : Thread nD τ).1, Proc.devRef .tc main_v4) ↦{fullShare} W (Proc.devRef .tc main_v4)) ∗ (((c : Thread nD τ).1, Proc.devRef .tc main_v5) ↦{fullShare} W (Proc.devRef .tc main_v5))) := fun W => by
    unfold StableHlo.held; rw [bigSep_insert hne, bigSep_singleton]; rfl
  unfold Dat.arrays Zfin
  rw [bigSep_W0, unscopedRest0_eq]
  iintro ⟨Hk, Hb, ⟨A0, A1, A2, A3, A4, A5, A6, A7, A8⟩, ⟨R2, R3, R4, R6, R5⟩⟩
  rw [← List.append_nil ([hostOps1].map StableHlo.seq)]
  iapply (Pipeline.wp_seqs_then (pcfgs (F := F)) defs₀ 𝒱₀ c ({Proc.devRef .tc main_v4, Proc.devRef .tc main_v5} : Finset (DevRef τ sig)) [] [hostOps1]
    (by intro ops ho op hop; rw [List.mem_singleton] at ho; subst ho; rw [List.mem_singleton] at hop; subst hop; exact subset_rfl)
    (by intro ops ho op hop; rw [List.mem_singleton] at ho; subst ho; rw [List.mem_singleton] at hop; subst hop; rfl)
    (Wtail m c)) $$ [Hb A8 R5]
  · isplitl [Hb]; · iexact Hb
    rw [hheld, hW4, hW5]
    isplitl [A8]
    · rw [(arr_whole0 8).set_eq_univ]; iexact A8
    · iexact R5
  rw [hheld, Pipeline.chain_nil, wp_pure]
  simp only [hostOps1, List.flatten_cons, List.flatten_nil, List.append_nil, StableHlo.after_cons, StableHlo.after_nil]
  rw [StableHlo.unary_result_ne main_v4 main_v5 _ _ _ _ (by decide : main_v4 ≠ main_v5), StableHlo.unary_result', hW4]
  iintro ⟨Hb, A8, R5⟩
  imodintro
  iapply Hk
  isplitl [A0 A1 A2 A3 A4 A5 A6 A7 A8]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    rw [(arr_whole0 8).set_eq_univ]; iexact A8
  isplitl [R2]; · iexact R2
  isplitl [R3]; · iexact R3
  isplitl [R4]; · iexact R4
  isplitl [R6]; · iexact R6
  iexact R5

/-! ## The run, the output's contents named -/

set_option backward.isDefEq.respectTransparency.types false in
/-- Under the hypothesis that lets the output be named exactly: every weakly fair execution terminates; each windowed
    array ends at what the write-backs leave, the result at the transposed output, the buffers no window stages as
    the region found them. -/
theorem run_main (hloc : OutLocal m) :
    θ_run defs (onTc (τ := τ) (main (F := F))) ⟨m, fun _ => 0, ρ⟩ (fun r => ∀ c : Dev nD,
      (∀ w, r.2.mem ((cfg0.win w).arr.view.loc (c : Thread nD τ)) = (dats m 0 c).arrAt w cfg0.N)
      ∧ r.2.mem ((c : Thread nD τ).loc main_arg2) = V m c main_arg2
      ∧ r.2.mem ((c : Thread nD τ).loc main_arg3) = V m c main_arg3
      ∧ r.2.mem ((c : Thread nD τ).loc main_arg4) = V m c main_arg4
      ∧ r.2.mem ((c : Thread nD τ).loc main_arg6) = V m c main_arg6
      ∧ r.2.mem ((c : Thread nD τ).loc main_v5) = resultT m c) :=
  Pipeline.θ_run_region_noSem_pf_tail (fun p => (cfgs p).toPCfg (Val := Elt F)) (fun p => (cfgs p).toPCfg_adm) (dats m) () cellOf_inj (0 : Fin 1)
    winFacts₀0 (Pipeline.PreFacts.none _) EP defs₀ Variants.none m ρ main (fun _ => Pipeline.chain ([hostOps1].map StableHlo.seq))
    (hbody := body_obligation m hloc) (hne := block_pos0) (harr := arr_whole0) (hstage := stage_whole0) (howed := fun _ _ => rfl)
    (u₀ := u₀) (hu₀ := BI.Entails.refl _) (V := V m) (hmain := hmain m Variants.none) (hsplit := hsplit m) (hpf := fun _ k => k.elim0)
    (X := fun _ => iprop(emp)) (Y := fun _ => iprop(emp)) (Z := fun c => Pipeline.unscopedRest spec0 c (V m c)) (Z' := Zfin m)
    (hX := fun c => by rw [Pipeline.unscopedRestP_none]; iintro H; isplitr; · iempintro
                       iexact H)
    (hin := fun c => by iintro -; iempintro)
    (hout := fun c => by rw [scopedRest0_eq]; iintro -; isplitr <;> iempintro)
    (htail := htail m Variants.none)
    (QY := fun c s => s.mem ((c : Thread nD τ).loc main_arg2) = V m c main_arg2
      ∧ s.mem ((c : Thread nD τ).loc main_arg3) = V m c main_arg3
      ∧ s.mem ((c : Thread nD τ).loc main_arg4) = V m c main_arg4
      ∧ s.mem ((c : Thread nD τ).loc main_arg6) = V m c main_arg6
      ∧ s.mem ((c : Thread nD τ).loc main_v5) = resultT m c)
    (hY := fun c s' => by
      unfold Zfin
      iintro ⟨-, ⟨R2, R3, R4, R6, R5⟩, HSI⟩
      icombine HSI R2 gives %h2
      icombine HSI R3 gives %h3
      icombine HSI R4 gives %h4
      icombine HSI R6 gives %h6
      icombine HSI R5 gives %h5
      imodintro
      isplitr
      · ipureintro
        exact ⟨Buf.eq_of_forall_mem_univ h2, Buf.eq_of_forall_mem_univ h3, Buf.eq_of_forall_mem_univ h4, Buf.eq_of_forall_mem_univ h6, Buf.eq_of_forall_mem_univ h5⟩
      iexact HSI)
    (hQ := fun s h c => ⟨(h c).1, (h c).2.2⟩)

/-! ## The run with the output forgotten: the frame at any float instance -/

/-- After the program, nothing said of the result. -/
def ZfinR (c : Dev nD) : sProp 𝕄 :=
  iprop((((c : Thread nD τ).loc main_arg2) ↦{fullShare} V m c main_arg2) ∗ (((c : Thread nD τ).loc main_arg3) ↦{fullShare} V m c main_arg3)
    ∗ (((c : Thread nD τ).loc main_arg4) ↦{fullShare} V m c main_arg4) ∗ (((c : Thread nD τ).loc main_arg6) ↦{fullShare} V m c main_arg6)
    ∗ (∃ G, ((c : Thread nD τ).loc main_v5) ↦{fullShare} G))

/-- The valuation the last host operation runs in when the output array holds `F8`. -/
def WtailAt (c : Dev nD) (F8 : Buf (Elt F) ((cfg0.win 8).arr.view.loc (c : Thread nD τ))) : Valuation τ sig (Elt F) :=
  Function.update (StableHlo.after ([hostOps0] : List (List (HloOp τ sig (Elt F)))).flatten (fun b => m (c, b)))
    (Proc.devRef .tc main_v4) F8

set_option backward.isDefEq.respectTransparency.types false in
theorem htailR (𝒱₀ : Variants) (c : Dev nD) (Q' : PUnit → sProp 𝕄) :
    iprop((iprop(((dats m 0 c).toRForget fgtOut).arraysAt cfg0.N ∗ ZfinR m c) -∗ Q' ⟨⟩)
        ∗ boundary (c : Thread nD τ) ∗ ((dats m 0 c).toRForget fgtOut).arraysAt cfg0.N ∗ Pipeline.unscopedRest spec0 c (V m c))
      ⊢ wp frame (wpE (Pipeline.defs (pcfgs (F := F)) defs₀) (Variants.lift 𝒱₀) (c : Thread nD τ) none) Set.univ
          (Pipeline.chain ([hostOps1].map StableHlo.seq)) Q' := by
  classical
  have hne : (Proc.devRef (τ := τ) .tc main_v4) ∉ ({Proc.devRef (τ := τ) .tc main_v5} : Finset (DevRef τ sig)) := by decide
  have hW4 : ∀ F8, WtailAt m c F8 (Proc.devRef .tc main_v4) = F8 := fun F8 => Function.update_self ..
  have hW5 : ∀ F8, WtailAt m c F8 (Proc.devRef .tc main_v5) = V m c main_v5 := fun F8 => Function.update_of_ne (by decide) ..
  have hheld : ∀ W : Valuation τ sig (Elt F), (StableHlo.held (c : Thread nD τ) ({Proc.devRef .tc main_v4, Proc.devRef .tc main_v5} : Finset (DevRef τ sig)) W : sProp 𝕄)
      = iprop((((c : Thread nD τ).1, Proc.devRef .tc main_v4) ↦{fullShare} W (Proc.devRef .tc main_v4)) ∗ (((c : Thread nD τ).1, Proc.devRef .tc main_v5) ↦{fullShare} W (Proc.devRef .tc main_v5))) := fun W => by
    unfold StableHlo.held; rw [bigSep_insert hne, bigSep_singleton]; rfl
  unfold Pipeline.RDat.arraysAt ZfinR
  rw [bigSep_W0, unscopedRest0_eq]
  iintro ⟨Hk, Hb, ⟨A0, A1, A2, A3, A4, A5, A6, A7, ⟨%F8, %hF8, A8⟩⟩, ⟨R2, R3, R4, R6, R5⟩⟩
  rw [← List.append_nil ([hostOps1].map StableHlo.seq)]
  iapply (Pipeline.wp_seqs_then (pcfgs (F := F)) defs₀ 𝒱₀ c ({Proc.devRef .tc main_v4, Proc.devRef .tc main_v5} : Finset (DevRef τ sig)) [] [hostOps1]
    (by intro ops ho op hop; rw [List.mem_singleton] at ho; subst ho; rw [List.mem_singleton] at hop; subst hop; exact subset_rfl)
    (by intro ops ho op hop; rw [List.mem_singleton] at ho; subst ho; rw [List.mem_singleton] at hop; subst hop; rfl)
    (WtailAt m c F8)) $$ [Hb A8 R5]
  · isplitl [Hb]; · iexact Hb
    rw [hheld, hW4, hW5]
    isplitl [A8]
    · rw [(arr_whole0 8).set_eq_univ]; iexact A8
    · iexact R5
  rw [hheld, Pipeline.chain_nil, wp_pure]
  simp only [hostOps1, List.flatten_cons, List.flatten_nil, List.append_nil, StableHlo.after_cons, StableHlo.after_nil]
  rw [StableHlo.unary_result_ne main_v4 main_v5 _ _ _ _ (by decide : main_v4 ≠ main_v5), hW4]
  iintro ⟨Hb, A8, R5⟩
  imodintro
  iapply Hk
  isplitl [A0 A1 A2 A3 A4 A5 A6 A7 A8]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexists F8; isplitr; · ipureintro; exact hF8
    rw [(arr_whole0 8).set_eq_univ]; iexact A8
  isplitl [R2]; · iexact R2
  isplitl [R3]; · iexact R3
  isplitl [R4]; · iexact R4
  isplitl [R6]; · iexact R6
  iexists _; iexact R5

set_option backward.isDefEq.respectTransparency.types false in
/-- At any float instance: every weakly fair execution terminates; each windowed array ends at contents the write-backs
    may leave (an input: as the region found it), the buffers no window stages and no later operation writes as found. -/
theorem run_frame :
    θ_run defs (onTc (τ := τ) (main (F := F))) ⟨m, fun _ => 0, ρ⟩ (fun r => ∀ c : Dev nD,
      (∀ w, ((dats m 0 c).toRForget fgtOut).ArrAt w cfg0.N (r.2.mem ((cfg0.win w).arr.view.loc (c : Thread nD τ))))
      ∧ r.2.mem ((c : Thread nD τ).loc main_arg2) = V m c main_arg2
      ∧ r.2.mem ((c : Thread nD τ).loc main_arg3) = V m c main_arg3
      ∧ r.2.mem ((c : Thread nD τ).loc main_arg4) = V m c main_arg4
      ∧ r.2.mem ((c : Thread nD τ).loc main_arg6) = V m c main_arg6) :=
  Pipeline.RDat.θ_run_region_pf_tail (fun p => (cfgs p).toPCfg (Val := Elt F)) (fun p => (cfgs p).toPCfg_adm) (fun p c => (dats m p c).toRForget fgtOut) () cellOf_inj (0 : Fin 1)
    winFacts₀0 (Pipeline.OwnSemFacts.none _) (Pipeline.PreFacts.none _) EP defs₀ Variants.none m ρ main (fun _ => Pipeline.chain ([hostOps1].map StableHlo.seq))
    (hbody := fun c => (body_obligation_forget m c).toRForget) (hne := block_pos0) (harr := arr_whole0) (hstage := stage_whole0) (howed := fun _ _ => rfl)
    (G := fun _ => BI.emp) (u₀ := u₀)
    (hu₀ := by
      have hu : (ownU u₀ : sProp 𝕄) ⊢ BI.own ((EP (F := F)) (initOf (Pipeline.cells cfgs cellOf_inj) (Pipeline.launchToks cfgs cellOf_inj))) := BI.Entails.refl _
      iintro Hu
      ihave H := hu $$ Hu
      imodintro
      isplitl [H]; · iexact H
      rw [BI.bigSep_emp_const]; iempintro)
    (V := V m) (hmain := hmain m Variants.none) (hsplit := hsplit m) (hpf := fun _ k => k.elim0)
    (X := fun _ => iprop(emp)) (Y := fun _ => iprop(emp)) (Z := fun c => Pipeline.unscopedRest spec0 c (V m c)) (Z' := ZfinR m)
    (hX := fun c => by
      rw [Pipeline.unscopedRestP_none]; iintro ⟨H, -⟩; imodintro; isplitr; · iempintro
      iexact H)
    (hin := fun c => by iintro -; iempintro)
    (hout := fun c => by
      rw [scopedRest0_eq, Pipeline.ownSems0_none]; iintro -; isplitr; · iempintro
      isplitr <;> iempintro)
    (htail := htailR m Variants.none)
    (QY := fun c s => s.mem ((c : Thread nD τ).loc main_arg2) = V m c main_arg2
      ∧ s.mem ((c : Thread nD τ).loc main_arg3) = V m c main_arg3
      ∧ s.mem ((c : Thread nD τ).loc main_arg4) = V m c main_arg4
      ∧ s.mem ((c : Thread nD τ).loc main_arg6) = V m c main_arg6)
    (hY := fun c s' => by
      unfold ZfinR
      iintro ⟨-, ⟨R2, R3, R4, R6, -⟩, HSI⟩
      icombine HSI R2 gives %h2
      icombine HSI R3 gives %h3
      icombine HSI R4 gives %h4
      icombine HSI R6 gives %h6
      imodintro
      isplitr
      · ipureintro
        exact ⟨Buf.eq_of_forall_mem_univ h2, Buf.eq_of_forall_mem_univ h3, Buf.eq_of_forall_mem_univ h4, Buf.eq_of_forall_mem_univ h6⟩
      iexact HSI)
    (hQ := fun s h c => ⟨(h c).1, (h c).2.2⟩)

end Cert.KernelIdeal.Run

end
-- ==== Proof.Frame.Claims.lean ====
/-
  The frame: the host operations before the region write only their own results, so the region finds the seven
  arguments as launched; no window's write-back and no later operation touches them.
-/
import proofs.«152506_g49632642072955_cont_8to1_c_73_15_alg».proof.Proof.Frame.Launch

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them: the arguments untouched, the four host results -/

theorem V_arg0 (c : Dev nD) : V m c main_arg0 = m ((c : Thread nD τ).loc main_arg0) := by
  show StableHlo.after _ _ _ = _
  simp only [List.flatten_cons, List.flatten_nil, List.append_nil]
  after_results <;> rfl
theorem V_arg1 (c : Dev nD) : V m c main_arg1 = m ((c : Thread nD τ).loc main_arg1) := by
  show StableHlo.after _ _ _ = _
  simp only [List.flatten_cons, List.flatten_nil, List.append_nil]
  after_results <;> rfl
theorem V_arg2 (c : Dev nD) : V m c main_arg2 = m ((c : Thread nD τ).loc main_arg2) := by
  show StableHlo.after _ _ _ = _
  simp only [List.flatten_cons, List.flatten_nil, List.append_nil]
  after_results <;> rfl
theorem V_arg3 (c : Dev nD) : V m c main_arg3 = m ((c : Thread nD τ).loc main_arg3) := by
  show StableHlo.after _ _ _ = _
  simp only [List.flatten_cons, List.flatten_nil, List.append_nil]
  after_results <;> rfl
theorem V_arg4 (c : Dev nD) : V m c main_arg4 = m ((c : Thread nD τ).loc main_arg4) := by
  show StableHlo.after _ _ _ = _
  simp only [List.flatten_cons, List.flatten_nil, List.append_nil]
  after_results <;> rfl
theorem V_arg5 (c : Dev nD) : V m c main_arg5 = m ((c : Thread nD τ).loc main_arg5) := by
  show StableHlo.after _ _ _ = _
  simp only [List.flatten_cons, List.flatten_nil, List.append_nil]
  after_results <;> rfl
theorem V_arg6 (c : Dev nD) : V m c main_arg6 = m ((c : Thread nD τ).loc main_arg6) := by
  show StableHlo.after _ _ _ = _
  simp only [List.flatten_cons, List.flatten_nil, List.append_nil]
  after_results <;> rfl

/-! ## The frame, at any float instance -/

/-- Every weakly fair execution terminates and the seven arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run_frame m ρ)
  have h0 := (h c).1 0
  have h2 := (h c).1 2
  have h6 := (h c).1 6
  rw [Pipeline.RDat.ArrAt_in _ 0 rfl] at h0
  rw [Pipeline.RDat.ArrAt_in _ 2 rfl] at h2
  rw [Pipeline.RDat.ArrAt_in _ 6 rfl] at h6
  exact ⟨h0.trans ((A_eq m c 0).trans (V_arg0 m c)), h2.trans ((A_eq m c 2).trans (V_arg1 m c)),
    (h c).2.1.trans (V_arg2 m c), (h c).2.2.1.trans (V_arg3 m c), (h c).2.2.2.1.trans (V_arg4 m c),
    h6.trans ((A_eq m c 6).trans (V_arg5 m c)), (h c).2.2.2.2.trans (V_arg6 m c)⟩

end Cert.KernelIdeal.Run

end
-- ==== Proof.KernelMatmul.lean ====
/-
  The kernel's three matrix products read at an index. At the ideal values a product into the zero accumulator is,
  at row `r` and column `n`, the sum over the contracted axis of `a (r, k) * b (k, n)`: the contraction index of
  a one-axis contraction is re-indexed by its single coordinate.
-/
import proofs.«152506_g49632642072955_cont_8to1_c_73_15_alg».proof.Proof.Gen.KernelIdeal.Skeleton
import Idealize.ShloMosaic.Lib.ValueIdx
import Idealize.ShloMosaic.PureOps.Ideal.Laws

noncomputable section

open scoped BigOperators

namespace Cert.MLP

open Idealize.ShloMosaic Idealize.ShloMosaic.ValueIdx Cert.KernelIdeal Cert.KernelIdeal.Gen

/-! ### First layer: a block of 6400 rows of 512 inputs times the 512 × 128 weights -/

theorem lhs_l1_0 (i : S6400x128.Idx) (q : dot_S6400x512_S512x128_S6400x128_1_0_0_1_n_n.contr.Idx) :
    (dot_S6400x512_S512x128_S6400x128_1_0_0_1_n_n.lhsIdx i q 0).val = (i 0).val := by
  unfold DotDims.lhsIdx
  rw [dif_neg (show ¬(0 : Fin S6400x512.rank) ∈ dot_S6400x512_S512x128_S6400x128_1_0_0_1_n_n.lhsBatch by decide), dif_pos (show (0 : Fin S6400x512.rank) ∈ dot_S6400x512_S512x128_S6400x128_1_0_0_1_n_n.lhsNonContracting by decide)]
  rfl
theorem lhs_l1_1 (i : S6400x128.Idx) (q : dot_S6400x512_S512x128_S6400x128_1_0_0_1_n_n.contr.Idx) :
    (dot_S6400x512_S512x128_S6400x128_1_0_0_1_n_n.lhsIdx i q 1).val = (q ⟨0, by decide⟩).val :=
  dot_S6400x512_S512x128_S6400x128_1_0_0_1_n_n.lhsIdx_val_of_single rfl i q
theorem rhs_l1_0 (i : S6400x128.Idx) (q : dot_S6400x512_S512x128_S6400x128_1_0_0_1_n_n.contr.Idx) :
    (dot_S6400x512_S512x128_S6400x128_1_0_0_1_n_n.rhsIdx i q 0).val = (q ⟨0, by decide⟩).val :=
  dot_S6400x512_S512x128_S6400x128_1_0_0_1_n_n.rhsIdx_val_of_single rfl i q
theorem rhs_l1_1 (i : S6400x128.Idx) (q : dot_S6400x512_S512x128_S6400x128_1_0_0_1_n_n.contr.Idx) :
    (dot_S6400x512_S512x128_S6400x128_1_0_0_1_n_n.rhsIdx i q 1).val = (i 1).val := by
  unfold DotDims.rhsIdx
  rw [dif_neg (show ¬(1 : Fin S512x128.rank) ∈ dot_S6400x512_S512x128_S6400x128_1_0_0_1_n_n.rhsBatch by decide), dif_pos (show (1 : Fin S512x128.rank) ∈ dot_S6400x512_S512x128_S6400x128_1_0_0_1_n_n.rhsNonContracting by decide)]
  rfl

/-- The product into a zero accumulator, read at row `r` and column `n`: the sum over the 512 contracted
    positions of the left operand's row times the right operand's column. -/
theorem matmul_l1_apply (a : FVec Ideal S6400x512 .f32) (b : FVec Ideal S512x128 .f32) (r : Fin 6400) (n : Fin 128) :
    matmul (F := Ideal) dot_S6400x512_S512x128_S6400x128_1_0_0_1_n_n none a b (constant (F := Ideal) S6400x128 .f32 0x00000000#32) (ix2 r n)
      = ∑ k : Fin 512, a (ix2 r k) * b (ix2 k n) := by
  simp only [matmul]
  rw [Ideal.matmul_constant_zero_apply, ← Equiv.sum_comp (contrEquiv1 dot_S6400x512_S512x128_S6400x128_1_0_0_1_n_n 512 rfl rfl).symm]
  refine Finset.sum_congr rfl fun k _ => ?_
  have hk := contrEquiv1_symm_val dot_S6400x512_S512x128_S6400x128_1_0_0_1_n_n 512 rfl rfl k
  have el : dot_S6400x512_S512x128_S6400x128_1_0_0_1_n_n.lhsIdx (ix2 r n) ((contrEquiv1 dot_S6400x512_S512x128_S6400x128_1_0_0_1_n_n 512 rfl rfl).symm k) = ix2 r k := funext fun c => Fin.ext (by
    match c with
    | ⟨0, _⟩ => exact lhs_l1_0 _ _
    | ⟨1, _⟩ => exact (lhs_l1_1 _ _).trans hk)
  have er : dot_S6400x512_S512x128_S6400x128_1_0_0_1_n_n.rhsIdx (ix2 r n) ((contrEquiv1 dot_S6400x512_S512x128_S6400x128_1_0_0_1_n_n 512 rfl rfl).symm k) = ix2 k n := funext fun c => Fin.ext (by
    match c with
    | ⟨0, _⟩ => exact (rhs_l1_0 _ _).trans hk
    | ⟨1, _⟩ => exact rhs_l1_1 _ _)
  rw [el, er]

/-! ### Second layer: 6400 rows of 128 units times the 128 × 64 weights -/

theorem lhs_l2_0 (i : S6400x64.Idx) (q : dot_S6400x128_S128x64_S6400x64_1_0_0_1_n_n.contr.Idx) :
    (dot_S6400x128_S128x64_S6400x64_1_0_0_1_n_n.lhsIdx i q 0).val = (i 0).val := by
  unfold DotDims.lhsIdx
  rw [dif_neg (show ¬(0 : Fin S6400x128.rank) ∈ dot_S6400x128_S128x64_S6400x64_1_0_0_1_n_n.lhsBatch by decide), dif_pos (show (0 : Fin S6400x128.rank) ∈ dot_S6400x128_S128x64_S6400x64_1_0_0_1_n_n.lhsNonContracting by decide)]
  rfl
theorem lhs_l2_1 (i : S6400x64.Idx) (q : dot_S6400x128_S128x64_S6400x64_1_0_0_1_n_n.contr.Idx) :
    (dot_S6400x128_S128x64_S6400x64_1_0_0_1_n_n.lhsIdx i q 1).val = (q ⟨0, by decide⟩).val :=
  dot_S6400x128_S128x64_S6400x64_1_0_0_1_n_n.lhsIdx_val_of_single rfl i q
theorem rhs_l2_0 (i : S6400x64.Idx) (q : dot_S6400x128_S128x64_S6400x64_1_0_0_1_n_n.contr.Idx) :
    (dot_S6400x128_S128x64_S6400x64_1_0_0_1_n_n.rhsIdx i q 0).val = (q ⟨0, by decide⟩).val :=
  dot_S6400x128_S128x64_S6400x64_1_0_0_1_n_n.rhsIdx_val_of_single rfl i q
theorem rhs_l2_1 (i : S6400x64.Idx) (q : dot_S6400x128_S128x64_S6400x64_1_0_0_1_n_n.contr.Idx) :
    (dot_S6400x128_S128x64_S6400x64_1_0_0_1_n_n.rhsIdx i q 1).val = (i 1).val := by
  unfold DotDims.rhsIdx
  rw [dif_neg (show ¬(1 : Fin S128x64.rank) ∈ dot_S6400x128_S128x64_S6400x64_1_0_0_1_n_n.rhsBatch by decide), dif_pos (show (1 : Fin S128x64.rank) ∈ dot_S6400x128_S128x64_S6400x64_1_0_0_1_n_n.rhsNonContracting by decide)]
  rfl

/-- The product into a zero accumulator, read at row `r` and column `n`: the sum over the 128 contracted
    positions of the left operand's row times the right operand's column. -/
theorem matmul_l2_apply (a : FVec Ideal S6400x128 .f32) (b : FVec Ideal S128x64 .f32) (r : Fin 6400) (n : Fin 64) :
    matmul (F := Ideal) dot_S6400x128_S128x64_S6400x64_1_0_0_1_n_n none a b (constant (F := Ideal) S6400x64 .f32 0x00000000#32) (ix2 r n)
      = ∑ k : Fin 128, a (ix2 r k) * b (ix2 k n) := by
  simp only [matmul]
  rw [Ideal.matmul_constant_zero_apply, ← Equiv.sum_comp (contrEquiv1 dot_S6400x128_S128x64_S6400x64_1_0_0_1_n_n 128 rfl rfl).symm]
  refine Finset.sum_congr rfl fun k _ => ?_
  have hk := contrEquiv1_symm_val dot_S6400x128_S128x64_S6400x64_1_0_0_1_n_n 128 rfl rfl k
  have el : dot_S6400x128_S128x64_S6400x64_1_0_0_1_n_n.lhsIdx (ix2 r n) ((contrEquiv1 dot_S6400x128_S128x64_S6400x64_1_0_0_1_n_n 128 rfl rfl).symm k) = ix2 r k := funext fun c => Fin.ext (by
    match c with
    | ⟨0, _⟩ => exact lhs_l2_0 _ _
    | ⟨1, _⟩ => exact (lhs_l2_1 _ _).trans hk)
  have er : dot_S6400x128_S128x64_S6400x64_1_0_0_1_n_n.rhsIdx (ix2 r n) ((contrEquiv1 dot_S6400x128_S128x64_S6400x64_1_0_0_1_n_n 128 rfl rfl).symm k) = ix2 k n := funext fun c => Fin.ext (by
    match c with
    | ⟨0, _⟩ => exact (rhs_l2_0 _ _).trans hk
    | ⟨1, _⟩ => exact rhs_l2_1 _ _)
  rw [el, er]

/-! ### Output layer: 6400 rows of 64 units times the 64 × 64 weights -/

theorem lhs_l3_0 (i : S6400x64.Idx) (q : dot_S6400x64_S64x64_S6400x64_1_0_0_1_n_n.contr.Idx) :
    (dot_S6400x64_S64x64_S6400x64_1_0_0_1_n_n.lhsIdx i q 0).val = (i 0).val := by
  unfold DotDims.lhsIdx
  rw [dif_neg (show ¬(0 : Fin S6400x64.rank) ∈ dot_S6400x64_S64x64_S6400x64_1_0_0_1_n_n.lhsBatch by decide), dif_pos (show (0 : Fin S6400x64.rank) ∈ dot_S6400x64_S64x64_S6400x64_1_0_0_1_n_n.lhsNonContracting by decide)]
  rfl
theorem lhs_l3_1 (i : S6400x64.Idx) (q : dot_S6400x64_S64x64_S6400x64_1_0_0_1_n_n.contr.Idx) :
    (dot_S6400x64_S64x64_S6400x64_1_0_0_1_n_n.lhsIdx i q 1).val = (q ⟨0, by decide⟩).val :=
  dot_S6400x64_S64x64_S6400x64_1_0_0_1_n_n.lhsIdx_val_of_single rfl i q
theorem rhs_l3_0 (i : S6400x64.Idx) (q : dot_S6400x64_S64x64_S6400x64_1_0_0_1_n_n.contr.Idx) :
    (dot_S6400x64_S64x64_S6400x64_1_0_0_1_n_n.rhsIdx i q 0).val = (q ⟨0, by decide⟩).val :=
  dot_S6400x64_S64x64_S6400x64_1_0_0_1_n_n.rhsIdx_val_of_single rfl i q
theorem rhs_l3_1 (i : S6400x64.Idx) (q : dot_S6400x64_S64x64_S6400x64_1_0_0_1_n_n.contr.Idx) :
    (dot_S6400x64_S64x64_S6400x64_1_0_0_1_n_n.rhsIdx i q 1).val = (i 1).val := by
  unfold DotDims.rhsIdx
  rw [dif_neg (show ¬(1 : Fin S64x64.rank) ∈ dot_S6400x64_S64x64_S6400x64_1_0_0_1_n_n.rhsBatch by decide), dif_pos (show (1 : Fin S64x64.rank) ∈ dot_S6400x64_S64x64_S6400x64_1_0_0_1_n_n.rhsNonContracting by decide)]
  rfl

/-- The product into a zero accumulator, read at row `r` and column `n`: the sum over the 64 contracted
    positions of the left operand's row times the right operand's column. -/
theorem matmul_l3_apply (a : FVec Ideal S6400x64 .f32) (b : FVec Ideal S64x64 .f32) (r : Fin 6400) (n : Fin 64) :
    matmul (F := Ideal) dot_S6400x64_S64x64_S6400x64_1_0_0_1_n_n none a b (constant (F := Ideal) S6400x64 .f32 0x00000000#32) (ix2 r n)
      = ∑ k : Fin 64, a (ix2 r k) * b (ix2 k n) := by
  simp only [matmul]
  rw [Ideal.matmul_constant_zero_apply, ← Equiv.sum_comp (contrEquiv1 dot_S6400x64_S64x64_S6400x64_1_0_0_1_n_n 64 rfl rfl).symm]
  refine Finset.sum_congr rfl fun k _ => ?_
  have hk := contrEquiv1_symm_val dot_S6400x64_S64x64_S6400x64_1_0_0_1_n_n 64 rfl rfl k
  have el : dot_S6400x64_S64x64_S6400x64_1_0_0_1_n_n.lhsIdx (ix2 r n) ((contrEquiv1 dot_S6400x64_S64x64_S6400x64_1_0_0_1_n_n 64 rfl rfl).symm k) = ix2 r k := funext fun c => Fin.ext (by
    match c with
    | ⟨0, _⟩ => exact lhs_l3_0 _ _
    | ⟨1, _⟩ => exact (lhs_l3_1 _ _).trans hk)
  have er : dot_S6400x64_S64x64_S6400x64_1_0_0_1_n_n.rhsIdx (ix2 r n) ((contrEquiv1 dot_S6400x64_S64x64_S6400x64_1_0_0_1_n_n 64 rfl rfl).symm k) = ix2 k n := funext fun c => Fin.ext (by
    match c with
    | ⟨0, _⟩ => exact (rhs_l3_0 _ _).trans hk
    | ⟨1, _⟩ => exact rhs_l3_1 _ _)
  rw [el, er]

end Cert.MLP

end
-- ==== Proof.Spec.lean ====
/-
  The specification of the three-layer perceptron, one output row at a time, over the extended reals.
  No program is imported here: only the ideal float values and the index vocabulary.

  A row `x : Fin 512 → EReal` goes through
      h₁ n = max ((∑ k, x k * w₁ k n) + b₁ n) 0
      h₂ n = max ((∑ k, h₁ k * w₂ k n) + b₂ n) 0
      out j = (∑ k, h₂ k * w₃ k j) + b₃ j
  where the `0` the maxima are taken against is kept as the word `0x00000000` read at f32: both programs
  carry that same word, so it is never evaluated.
-/
import Idealize.ShloMosaic.PureOps.Ideal
import Idealize.ShloMosaic.Lib.ValueIdx

noncomputable section

open scoped BigOperators

namespace Cert.MLP

open Idealize.ShloMosaic

/-- The first hidden layer of one row: 512 inputs to 128 units, rectified. -/
def hidden1 (x : Fin 512 → EReal) (w1 : Fin 512 → Fin 128 → EReal) (b1 : Fin 128 → EReal) : Fin 128 → EReal :=
  fun n => max ((∑ k : Fin 512, x k * w1 k n) + b1 n) (Ideal.ofBits .f32 0x00000000#32)

/-- The second hidden layer of one row: 128 units to 64 units, rectified. -/
def hidden2 (h : Fin 128 → EReal) (w2 : Fin 128 → Fin 64 → EReal) (b2 : Fin 64 → EReal) : Fin 64 → EReal :=
  fun n => max ((∑ k : Fin 128, h k * w2 k n) + b2 n) (Ideal.ofBits .f32 0x00000000#32)

/-- The output layer of one row: 64 units to 64 classes, affine (no rectifier). -/
def outLayer (h : Fin 64 → EReal) (w3 : Fin 64 → Fin 64 → EReal) (b3 : Fin 64 → EReal) : Fin 64 → EReal :=
  fun j => (∑ k : Fin 64, h k * w3 k j) + b3 j

/-- One output row of the perceptron: the three layers composed. -/
def rowMLP (x : Fin 512 → EReal) (w1 : Fin 512 → Fin 128 → EReal) (b1 : Fin 128 → EReal)
    (w2 : Fin 128 → Fin 64 → EReal) (b2 : Fin 64 → EReal) (w3 : Fin 64 → Fin 64 → EReal) (b3 : Fin 64 → EReal) :
    Fin 64 → EReal :=
  outLayer (hidden2 (hidden1 x w1 b1) w2 b2) w3 b3

/-- The specification written out: the three nested sums. -/
theorem rowMLP_apply (x : Fin 512 → EReal) (w1 : Fin 512 → Fin 128 → EReal) (b1 : Fin 128 → EReal)
    (w2 : Fin 128 → Fin 64 → EReal) (b2 : Fin 64 → EReal) (w3 : Fin 64 → Fin 64 → EReal) (b3 : Fin 64 → EReal)
    (j : Fin 64) :
    rowMLP x w1 b1 w2 b2 w3 b3 j =
      (∑ k2 : Fin 64,
        max ((∑ k1 : Fin 128,
          max ((∑ k0 : Fin 512, x k0 * w1 k0 k1) + b1 k1) (Ideal.ofBits .f32 0x00000000#32) * w2 k1 k2) + b2 k2)
          (Ideal.ofBits .f32 0x00000000#32) * w3 k2 j) + b3 j := rfl

end Cert.MLP

end
-- ==== Proof.KernelPayload.lean ====
/-
  The two values the kernel stores, read at an index. Each is the transposed block of output rows: at column `r`
  (a row of the block) and row `j` (a class) it is the specification's row function of the block's row `r`.
  Layer by layer: a product into the zero accumulator is the sum over the contracted axis; the bias, a 1 × n row
  broadcast over the 6400 rows, is read at its column; the rectifier is the maximum with the zero word.
-/
import proofs.«152506_g49632642072955_cont_8to1_c_73_15_alg».proof.Proof.KernelMatmul
import proofs.«152506_g49632642072955_cont_8to1_c_73_15_alg».proof.Proof.Spec
import Idealize.ShloMosaic.Lib.ValueLayout

noncomputable section

open scoped BigOperators

namespace Cert.MLP

open Idealize.ShloMosaic Idealize.ShloMosaic.ValueIdx Cert.KernelIdeal Cert.KernelIdeal.Gen

/-! ## The layers over vectors -/

/-- The 1 × 128 bias row, cast to its own shape and broadcast over the 6400 rows, read at `(r, n)`. -/
theorem bias128_apply (bias : FVec Ideal S1x128 .f32) (r : Fin 6400) (n : Fin 128) :
    broadcastTo S6400x128 (shapeCast S1x128 bias Facts₀.shapeCasts_S1x128_S1x128) Facts₀.broadcasts_S1x128_S6400x128 (ix2 r n)
      = bias (ix2 0 n) := by
  rw [shapeCast_self]
  exact broadcastTo_1b_ab_apply bias _ r n

/-- The 1 × 64 bias row, cast to its own shape and broadcast over the 6400 rows, read at `(r, n)`. -/
theorem bias64_apply (bias : FVec Ideal S1x64 .f32) (r : Fin 6400) (n : Fin 64) :
    broadcastTo S6400x64 (shapeCast S1x64 bias Facts₀.shapeCasts_S1x64_S1x64) Facts₀.broadcasts_S1x64_S6400x64 (ix2 r n)
      = bias (ix2 0 n) := by
  rw [shapeCast_self]
  exact broadcastTo_1b_ab_apply bias _ r n

/-- First layer over a block: product, bias, rectifier, read at `(r, n)`. The product and the broadcast bias enter as
    the two vectors `p` and `q` with their readings, as the second half of the block receives them. -/
theorem layer1_apply' (p q : FVec Ideal S6400x128 .f32) (x : FVec Ideal S6400x512 .f32) (w : FVec Ideal S512x128 .f32)
    (bias : FVec Ideal S1x128 .f32) (r : Fin 6400) (n : Fin 128)
    (hp : p (ix2 r n) = ∑ k : Fin 512, x (ix2 r k) * w (ix2 k n)) (hq : q (ix2 r n) = bias (ix2 0 n)) :
    maximumf (addf p q) (broadcast S6400x128 (Scalar.ofBits (F := Ideal) .f32 0x00000000#32)) (ix2 r n)
      = hidden1 (fun k => x (ix2 r k)) (fun k n => w (ix2 k n)) (fun n => bias (ix2 0 n)) n := by
  rw [maximumf_apply, addf_apply, hp, hq]
  rfl

/-- First layer over a block, from the operands. -/
theorem layer1_apply (x : FVec Ideal S6400x512 .f32) (w : FVec Ideal S512x128 .f32) (bias : FVec Ideal S1x128 .f32)
    (r : Fin 6400) (n : Fin 128) :
    maximumf (addf (matmul (F := Ideal) dot_S6400x512_S512x128_S6400x128_1_0_0_1_n_n none x w (constant (F := Ideal) S6400x128 .f32 0x00000000#32))
        (broadcastTo S6400x128 (shapeCast S1x128 bias Facts₀.shapeCasts_S1x128_S1x128) Facts₀.broadcasts_S1x128_S6400x128))
      (broadcast S6400x128 (Scalar.ofBits (F := Ideal) .f32 0x00000000#32)) (ix2 r n)
      = hidden1 (fun k => x (ix2 r k)) (fun k n => w (ix2 k n)) (fun n => bias (ix2 0 n)) n :=
  layer1_apply' _ _ x w bias r n (matmul_l1_apply x w r n) (bias128_apply bias r n)

/-- Second layer over a block: product, bias, rectifier, read at `(r, n)`. -/
theorem layer2_apply (h : FVec Ideal S6400x128 .f32) (w : FVec Ideal S128x64 .f32) (bias : FVec Ideal S1x64 .f32)
    (r : Fin 6400) (n : Fin 64) :
    maximumf (addf (matmul (F := Ideal) dot_S6400x128_S128x64_S6400x64_1_0_0_1_n_n none h w (constant (F := Ideal) S6400x64 .f32 0x00000000#32))
        (broadcastTo S6400x64 (shapeCast S1x64 bias Facts₀.shapeCasts_S1x64_S1x64) Facts₀.broadcasts_S1x64_S6400x64))
      (broadcast S6400x64 (Scalar.ofBits (F := Ideal) .f32 0x00000000#32)) (ix2 r n)
      = hidden2 (fun k => h (ix2 r k)) (fun k n => w (ix2 k n)) (fun n => bias (ix2 0 n)) n := by
  rw [maximumf_apply, addf_apply, matmul_l2_apply, bias64_apply]
  rfl

/-- Output layer over a block: product and bias, read at `(r, j)`. -/
theorem layer3_apply (h : FVec Ideal S6400x64 .f32) (w : FVec Ideal S64x64 .f32) (bias : FVec Ideal S1x64 .f32)
    (r : Fin 6400) (j : Fin 64) :
    addf (matmul (F := Ideal) dot_S6400x64_S64x64_S6400x64_1_0_0_1_n_n none h w (constant (F := Ideal) S6400x64 .f32 0x00000000#32))
        (broadcastTo S6400x64 (shapeCast S1x64 bias Facts₀.shapeCasts_S1x64_S1x64) Facts₀.broadcasts_S1x64_S6400x64) (ix2 r j)
      = outLayer (fun k => h (ix2 r k)) (fun k n => w (ix2 k n)) (fun n => bias (ix2 0 n)) j := by
  rw [addf_apply, matmul_l3_apply, bias64_apply]
  rfl

/-! ## The payloads -/

/-- The second weight matrix arrives transposed (64 × 128) and is transposed back in the body. -/
theorem pay2_apply (v1 : Vec Ideal S64x128 .f32) (k : Fin 128) (n : Fin 64) :
    k0_pay2 (F := Ideal) v1 (ix2 k n) = v1 (ix2 n k) := by
  unfold k0_pay2
  dsimp only
  rw [transpose_ix2_apply, shapeCast_self]

/-- The first product of the second half of the block. -/
theorem pay4_apply (v0 : Vec Ideal S512x128 .f32) (v27 : Vec Ideal S6400x512 .f32) (r : Fin 6400) (n : Fin 128) :
    k0_pay4 (F := Ideal) v0 v27 (ix2 r n) = ∑ k : Fin 512, v27 (ix2 r k) * v0 (ix2 k n) := by
  unfold k0_pay4
  exact matmul_l1_apply v27 v0 r n

/-- The first bias of the second half of the block. -/
theorem pay5_apply (v29 : Vec Ideal S1x128 .f32) (r : Fin 6400) (n : Fin 128) :
    k0_pay5 (F := Ideal) v29 (ix2 r n) = v29 (ix2 0 n) := by
  unfold k0_pay5
  exact bias128_apply v29 r n

/-- The first half of the block: what the kernel stores at `(j, r)` is the specification's row function of row `r`
    of the loaded block, at class `j`. -/
theorem pay3_apply (v0 : Vec Ideal S512x128 .f32) (v1 : Vec Ideal S64x128 .f32) (v4 : Vec Ideal S64x64 .f32)
    (v5 : Vec Ideal S6400x512 .f32) (v7 : Vec Ideal S1x128 .f32) (v14 : Vec Ideal S1x64 .f32) (v21 : Vec Ideal S1x64 .f32)
    (j : Fin 64) (r : Fin 6400) :
    k0_pay3 (F := Ideal) v0 v1 v4 v5 v7 v14 v21 (ix2 j r)
      = rowMLP (fun k => v5 (ix2 r k)) (fun k n => v0 (ix2 k n)) (fun n => v7 (ix2 0 n)) (fun k n => v1 (ix2 n k))
          (fun n => v14 (ix2 0 n)) (fun k n => v4 (ix2 k n)) (fun n => v21 (ix2 0 n)) j := by
  unfold k0_pay3
  dsimp only
  rw [transpose_ix2_apply, layer3_apply]
  unfold rowMLP
  congr 1
  funext n2
  rw [layer2_apply]
  congr 1
  · funext n1
    exact layer1_apply v5 v0 v7 r n1
  · funext k n
    exact pay2_apply v1 k n

/-- The second half of the block, which receives the transposed-back second weights, the first product and the
    broadcast first bias from the statements before it. -/
theorem pay1_apply (v0 : Vec Ideal S512x128 .f32) (v1 : Vec Ideal S64x128 .f32) (v4 : Vec Ideal S64x64 .f32)
    (v27 : Vec Ideal S6400x512 .f32) (v29 : Vec Ideal S1x128 .f32) (v36 : Vec Ideal S1x64 .f32) (v43 : Vec Ideal S1x64 .f32)
    (j : Fin 64) (r : Fin 6400) :
    k0_pay1 (F := Ideal) (k0_pay2 v1) v4 (k0_pay4 v0 v27) (k0_pay5 v29) v36 v43 (ix2 j r)
      = rowMLP (fun k => v27 (ix2 r k)) (fun k n => v0 (ix2 k n)) (fun n => v29 (ix2 0 n)) (fun k n => v1 (ix2 n k))
          (fun n => v36 (ix2 0 n)) (fun k n => v4 (ix2 k n)) (fun n => v43 (ix2 0 n)) j := by
  unfold k0_pay1
  dsimp only
  rw [transpose_ix2_apply, layer3_apply]
  unfold rowMLP
  congr 1
  funext n2
  rw [layer2_apply]
  congr 1
  · funext n1
    exact layer1_apply' _ _ v27 v0 v29 r n1 (pay4_apply v0 v27 r n1) (pay5_apply v29 r n1)
  · funext k n
    exact pay2_apply v1 k n

end Cert.MLP

end
-- ==== Proof.OutBlock.lean ====
/-
  The output block the body leaves, read at an index. The block is 64 × 12800: its left 6400 columns are the
  transposed outputs of the first row block, its right 6400 columns those of the second. At row `j` (a class) and
  column `r` of a half it is the specification's row function of row `r` of that half's row block, at `j`.
-/
import proofs.«152506_g49632642072955_cont_8to1_c_73_15_alg».proof.Proof.Frame.Body
import proofs.«152506_g49632642072955_cont_8to1_c_73_15_alg».proof.Proof.KernelPayload

noncomputable section

namespace Cert.MLP

open Idealize.ShloMosaic Idealize.ShloMosaic.ValueIdx Cert.KernelIdeal Cert.KernelIdeal.Gen Cert.KernelIdeal.Run

theorem hz2 : (![0, 0] : Fin 2 → Nat) = fun _ => 0 :=
  funext fun a => by match a with | ⟨0, _⟩ => rfl | ⟨1, _⟩ => rfl

/-- The left half: column `r < 6400`. -/
theorem outBlock_left_apply (x0 x1 : Vec Ideal S6400x512 .f32) (x2 : Vec Ideal S512x128 .f32) (x3 : Vec Ideal S1x128 .f32)
    (x4 : Vec Ideal S64x128 .f32) (x5 : Vec Ideal S1x64 .f32) (x6 : Vec Ideal S64x64 .f32) (x7 : Vec Ideal S1x64 .f32)
    (y : S64x12800.Idx) (j : Fin 64) (r : Fin 6400) (h0 : (y 0).val = j.val) (h1 : (y 1).val = r.val) :
    outBlock (F := Ideal) x0 x1 x2 x3 x4 x5 x6 x7 y
      = rowMLP (fun k => x0 (ix2 r k)) (fun k n => x2 (ix2 k n)) (fun n => x3 (ix2 0 n)) (fun k n => x4 (ix2 n k))
          (fun n => x5 (ix2 0 n)) (fun k n => x6 (ix2 k n)) (fun n => x7 (ix2 0 n)) j := by
  have hy : y = rLeft.emb (ix2 j r) := funext fun a => Fin.ext (by
    match a with
    | ⟨0, _⟩ => show (y 0).val = 0 + 1 * j.val; omega
    | ⟨1, _⟩ => show (y 1).val = 0 + 1 * r.val; omega)
  have hn : y ∉ rRight.set := by
    rw [Rect.mem_set_unit]
    intro h
    have h6 : 6400 ≤ (y 1).val := (h 1).1
    have := r.isLt
    omega
  have e0 : View.ld (Val := Elt Ideal) (e' := .f32) x0 rX = x0 := View.ld_unit_zero (S := S6400x512) hz2 _ x0
  have e1 : View.ld (Val := Elt Ideal) (e' := .f32) x1 rX = x1 := View.ld_unit_zero (S := S6400x512) hz2 _ x1
  have e2 : View.ld (Val := Elt Ideal) (e' := .f32) x2 rW1 = x2 := View.ld_unit_zero (S := S512x128) hz2 _ x2
  have e3 : View.ld (Val := Elt Ideal) (e' := .f32) x3 rC1 = x3 := View.ld_unit_zero (S := S1x128) hz2 _ x3
  have e4 : View.ld (Val := Elt Ideal) (e' := .f32) x4 rW2 = x4 := View.ld_unit_zero (S := S64x128) hz2 _ x4
  have e5 : View.ld (Val := Elt Ideal) (e' := .f32) x5 rC2 = x5 := View.ld_unit_zero (S := S1x64) hz2 _ x5
  have e6 : View.ld (Val := Elt Ideal) (e' := .f32) x6 rW3 = x6 := View.ld_unit_zero (S := S64x64) hz2 _ x6
  have e7 : View.ld (Val := Elt Ideal) (e' := .f32) x7 rC3 = x7 := View.ld_unit_zero (S := S1x64) hz2 _ x7
  unfold outBlock
  rw [View.canon_cons_of_not_mem (Val := Elt Ideal) (s := S64x12800) (e := .f32) ⟨rRight, _⟩ _ hn, hy, View.canon_cons_emb, e0, e2, e3, e4, e5, e6, e7]
  exact pay3_apply x2 x4 x6 x0 x3 x5 x7 j r

/-- The right half: column `6400 + r`. -/
theorem outBlock_right_apply (x0 x1 : Vec Ideal S6400x512 .f32) (x2 : Vec Ideal S512x128 .f32) (x3 : Vec Ideal S1x128 .f32)
    (x4 : Vec Ideal S64x128 .f32) (x5 : Vec Ideal S1x64 .f32) (x6 : Vec Ideal S64x64 .f32) (x7 : Vec Ideal S1x64 .f32)
    (y : S64x12800.Idx) (j : Fin 64) (r : Fin 6400) (h0 : (y 0).val = j.val) (h1 : (y 1).val = 6400 + r.val) :
    outBlock (F := Ideal) x0 x1 x2 x3 x4 x5 x6 x7 y
      = rowMLP (fun k => x1 (ix2 r k)) (fun k n => x2 (ix2 k n)) (fun n => x3 (ix2 0 n)) (fun k n => x4 (ix2 n k))
          (fun n => x5 (ix2 0 n)) (fun k n => x6 (ix2 k n)) (fun n => x7 (ix2 0 n)) j := by
  have hy : y = rRight.emb (ix2 j r) := funext fun a => Fin.ext (by
    match a with
    | ⟨0, _⟩ => show (y 0).val = 0 + 1 * j.val; omega
    | ⟨1, _⟩ => show (y 1).val = 6400 + 1 * r.val; omega)
  have e0 : View.ld (Val := Elt Ideal) (e' := .f32) x0 rX = x0 := View.ld_unit_zero (S := S6400x512) hz2 _ x0
  have e1 : View.ld (Val := Elt Ideal) (e' := .f32) x1 rX = x1 := View.ld_unit_zero (S := S6400x512) hz2 _ x1
  have e2 : View.ld (Val := Elt Ideal) (e' := .f32) x2 rW1 = x2 := View.ld_unit_zero (S := S512x128) hz2 _ x2
  have e3 : View.ld (Val := Elt Ideal) (e' := .f32) x3 rC1 = x3 := View.ld_unit_zero (S := S1x128) hz2 _ x3
  have e4 : View.ld (Val := Elt Ideal) (e' := .f32) x4 rW2 = x4 := View.ld_unit_zero (S := S64x128) hz2 _ x4
  have e5 : View.ld (Val := Elt Ideal) (e' := .f32) x5 rC2 = x5 := View.ld_unit_zero (S := S1x64) hz2 _ x5
  have e6 : View.ld (Val := Elt Ideal) (e' := .f32) x6 rW3 = x6 := View.ld_unit_zero (S := S64x64) hz2 _ x6
  have e7 : View.ld (Val := Elt Ideal) (e' := .f32) x7 rC3 = x7 := View.ld_unit_zero (S := S1x64) hz2 _ x7
  unfold outBlock
  rw [hy, View.canon_cons_emb, e1, e2, e3, e4, e5, e6, e7]
  exact pay1_apply x2 x4 x6 x1 x3 x5 x7 j r

end Cert.MLP

end
-- ==== Proof.OutLocal.lean ====
/-
  The output block's part inside the array does not depend on what the two row-block buffers hold past the array's
  end. An entry `(j, r)` of a half of the block reads only row `r` of that half's row block; for a column the
  write-back moves, that row is one the fetch moved: the first row block is never cut, and where the second is cut
  (at the last grid point) the output block is cut at the same row.
-/
import proofs.«152506_g49632642072955_cont_8to1_c_73_15_alg».proof.Proof.Frame.Dats
import proofs.«152506_g49632642072955_cont_8to1_c_73_15_alg».proof.Proof.OutBlock

set_option maxRecDepth 16384

noncomputable section

namespace Cert.MLP

open Idealize.ShloMosaic Idealize.ShloMosaic.TcCoe Idealize.ShloMosaic.ValueIdx Idealize.SL.Sem
open Cert.KernelIdeal Cert.KernelIdeal.Gen Cert.KernelIdeal.Run
open Idealize.ShloMosaic.Pipeline (Dat Cfg Window)

/-! ## The cuts, decided over the eight grid points -/

/-- The first row-block window is never cut. -/
theorem xsize_win0 : ∀ t : Fin cfg0.N, win0_0.xsize (grid0.coords t) 0 = 6400 ∧ win0_0.xsize (grid0.coords t) 1 = 512 :=
  (by decide +kernel : ∀ t : Fin grid0.N, win0_0.xsize (grid0.coords t) 0 = 6400 ∧ win0_0.xsize (grid0.coords t) 1 = 512)

/-- The second row-block window keeps its 512 columns, and the output block's columns stop where the second row
    block's rows do. -/
theorem xsize_win1 : ∀ t : Fin cfg0.N, win0_1.xsize (grid0.coords t) 1 = 512
      ∧ win0_8.xsize (grid0.coords t) 1 ≤ 6400 + win0_1.xsize (grid0.coords t) 0 :=
  (by decide +kernel : ∀ t : Fin grid0.N, win0_1.xsize (grid0.coords t) 1 = 512
      ∧ win0_8.xsize (grid0.coords t) 1 ≤ 6400 + win0_1.xsize (grid0.coords t) 0)

/-! ## Two fillings of one block agree on the part the transfer moves -/

theorem fill_eq_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill
  rw [dif_pos h, dif_pos h]

variable (m : (ℓ : Loc nD τ sig) → Buf (Elt Ideal) ℓ)

/-- Every row of the first row-block buffer is fetched. -/
theorem fetched0_apply (c : Dev nD) (t : Fin cfg0.N) (d0) (r : Fin 6400) (k : Fin 512) :
    (dats (F := Ideal) m 0 c).fetched 0 t d0 (ix2 r k) = in0 m c t (ix2 r k) := by
  rw [fetched_eq]
  unfold in0
  refine fill_eq_of_moved win0_0 (grid0.coords t) _ _ _ _ ((win0_0.moved_iff _ _).mpr fun a => ?_)
  match a with
  | ⟨0, _⟩ => show r.val < win0_0.xsize (grid0.coords t) 0; rw [(xsize_win0 t).1]; exact r.isLt
  | ⟨1, _⟩ => show k.val < win0_0.xsize (grid0.coords t) 1; rw [(xsize_win0 t).2]; exact k.isLt

/-- A row of the second row-block buffer below the cut is fetched. -/
theorem fetched1_apply (c : Dev nD) (t : Fin cfg0.N) (d1) (r : Fin 6400) (k : Fin 512)
    (hr : r.val < win0_1.xsize (grid0.coords t) 0) :
    (dats (F := Ideal) m 0 c).fetched 1 t d1 (ix2 r k) = in1 m c t (ix2 r k) := by
  rw [fetched_eq]
  unfold in1
  refine fill_eq_of_moved win0_1 (grid0.coords t) _ _ _ _ ((win0_1.moved_iff _ _).mpr fun a => ?_)
  match a with
  | ⟨0, _⟩ => exact hr
  | ⟨1, _⟩ => show k.val < win0_1.xsize (grid0.coords t) 1; rw [(xsize_win1 t).1]; exact k.isLt

/-- THE LOCALITY of the output block's moved part. -/
theorem outLocal : OutLocal (F := Ideal) m := by
  intro c t d0 d1
  funext y
  show outBlock (F := Ideal) _ _ _ _ _ _ _ _ (win0_8.xinj (grid0.coords t) y)
    = outBlock (F := Ideal) _ _ _ _ _ _ _ _ (win0_8.xinj (grid0.coords t) y)
  have hj : (y 0).val < 64 := Nat.lt_of_lt_of_le (y 0).isLt (win0_8.xsize_le (grid0.coords t) 0)
  have h8 : (y 1).val < win0_8.xsize (grid0.coords t) 1 := (y 1).isLt
  have hc : (y 1).val < 12800 := Nat.lt_of_lt_of_le h8 (win0_8.xsize_le (grid0.coords t) 1)
  by_cases hl : (y 1).val < 6400
  · rw [outBlock_left_apply _ _ _ _ _ _ _ _ _ ⟨(y 0).val, hj⟩ ⟨(y 1).val, hl⟩ rfl rfl,
      outBlock_left_apply _ _ _ _ _ _ _ _ _ ⟨(y 0).val, hj⟩ ⟨(y 1).val, hl⟩ rfl rfl]
    congr 1
    funext k
    exact fetched0_apply m c t d0 ⟨(y 1).val, hl⟩ k
  · have hr : (y 1).val - 6400 < 6400 := by omega
    have hy1 : (y 1).val = 6400 + ((y 1).val - 6400) := by omega
    have hm : (y 1).val - 6400 < win0_1.xsize (grid0.coords t) 0 := by
      have := (xsize_win1 t).2
      omega
    rw [outBlock_right_apply _ _ _ _ _ _ _ _ _ ⟨(y 0).val, hj⟩ ⟨(y 1).val - 6400, hr⟩ rfl hy1,
      outBlock_right_apply _ _ _ _ _ _ _ _ _ ⟨(y 0).val, hj⟩ ⟨(y 1).val - 6400, hr⟩ rfl hy1]
    congr 1
    funext k
    exact fetched1_apply m c t d1 ⟨(y 1).val - 6400, hr⟩ k hm

end Cert.MLP

end
-- ==== Proof.RefValue.lean ====
/-
  The reference program's result read at an index: at row `r` and class `j` the composed term of its eighteen host
  operations is the specification's row function of row `r` of the input, at `j`. Each product of the host is the
  sum over its contracted axis, each bias a vector broadcast along the rows, each rectifier the maximum with the
  zero word broadcast from a scalar.
-/
import proofs.«152506_g49632642072955_cont_8to1_c_73_15_alg».proof.Proof.Gen.ReferenceIdeal.Read
import proofs.«152506_g49632642072955_cont_8to1_c_73_15_alg».proof.Proof.Spec

noncomputable section

open scoped BigOperators

namespace Cert.MLP

open Idealize.ShloMosaic Idealize.ShloMosaic.ValueIdx Cert.ReferenceIdeal Cert.ReferenceIdeal.Gen Cert.ReferenceIdeal.Read

/-! ## The operand indices of the host's operations, by coordinates -/

theorem lidx_v0 (r : Fin 100000) (n : Fin 128) (k : Fin 512) : lidx_main_v0 (ix2 r n) k = ix2 r k :=
  funext fun a => Fin.ext (by match a with | ⟨0, _⟩ => rfl | ⟨1, _⟩ => rfl)
theorem ridx_v0 (r : Fin 100000) (n : Fin 128) (k : Fin 512) : ridx_main_v0 (ix2 r n) k = ix2 k n :=
  funext fun a => Fin.ext (by match a with | ⟨0, _⟩ => rfl | ⟨1, _⟩ => rfl)
theorem bidx_v2 (r : Fin 100000) (n : Fin 128) : idx_main_v1 (idx_main_v2 (ix2 r n)) = ix1 n :=
  funext fun a => Fin.ext (by match a with | ⟨0, _⟩ => rfl)
theorem lidx_v5 (r : Fin 100000) (n : Fin 64) (k : Fin 128) : lidx_main_v5 (ix2 r n) k = ix2 r k :=
  funext fun a => Fin.ext (by match a with | ⟨0, _⟩ => rfl | ⟨1, _⟩ => rfl)
theorem ridx_v5 (r : Fin 100000) (n : Fin 64) (k : Fin 128) : ridx_main_v5 (ix2 r n) k = ix2 k n :=
  funext fun a => Fin.ext (by match a with | ⟨0, _⟩ => rfl | ⟨1, _⟩ => rfl)
theorem bidx_v7 (r : Fin 100000) (n : Fin 64) : idx_main_v6 (idx_main_v7 (ix2 r n)) = ix1 n :=
  funext fun a => Fin.ext (by match a with | ⟨0, _⟩ => rfl)
theorem lidx_v10 (r : Fin 100000) (n : Fin 64) (k : Fin 64) : lidx_main_v10 (ix2 r n) k = ix2 r k :=
  funext fun a => Fin.ext (by match a with | ⟨0, _⟩ => rfl | ⟨1, _⟩ => rfl)
theorem ridx_v10 (r : Fin 100000) (n : Fin 64) (k : Fin 64) : ridx_main_v10 (ix2 r n) k = ix2 k n :=
  funext fun a => Fin.ext (by match a with | ⟨0, _⟩ => rfl | ⟨1, _⟩ => rfl)
theorem bidx_v12 (r : Fin 100000) (n : Fin 64) : idx_main_v11 (idx_main_v12 (ix2 r n)) = ix1 n :=
  funext fun a => Fin.ext (by match a with | ⟨0, _⟩ => rfl)

/-! ## The three layers -/

/-- The reference's first rectified layer at `(r, n)`. -/
theorem ref_hidden1 (a0 : FVec Ideal S100000x512 .f32) (a1 : FVec Ideal S512x128 .f32)
    (a2 : FVec Ideal S128 .f32) (r : Fin 100000) (n : Fin 128) :
    val_main_v4 (F := Ideal) a0 a1 a2 (ix2 r n)
      = hidden1 (fun k => a0 (ix2 r k)) (fun k n => a1 (ix2 k n)) (fun n => a2 (ix1 n)) n := by
  rw [val_main_v4_apply, val_main_v3_apply, val_main_v0_apply, val_main_v2_apply, val_main_v1_apply,
    val_main_call0_v0_apply, val_main_call0_cst_apply, bidx_v2]
  simp only [lidx_v0, ridx_v0]
  rfl

/-- The reference's second rectified layer at `(r, n)`. -/
theorem ref_hidden2 (a0 : FVec Ideal S100000x512 .f32) (a1 : FVec Ideal S512x128 .f32)
    (a2 : FVec Ideal S128 .f32) (a3 : FVec Ideal S128x64 .f32)
    (a4 : FVec Ideal S64 .f32) (r : Fin 100000) (n : Fin 64) :
    val_main_v9 (F := Ideal) a0 a1 a2 a3 a4 (ix2 r n)
      = hidden2 (hidden1 (fun k => a0 (ix2 r k)) (fun k n => a1 (ix2 k n)) (fun n => a2 (ix1 n)))
          (fun k n => a3 (ix2 k n)) (fun n => a4 (ix1 n)) n := by
  rw [val_main_v9_apply, val_main_v8_apply, val_main_v5_apply, val_main_v7_apply, val_main_v6_apply,
    val_main_call1_v0_apply, val_main_call1_cst_apply, bidx_v7]
  simp only [lidx_v5, ridx_v5, ref_hidden1]
  rfl

/-- THE REFERENCE AT AN INDEX: row `r`, class `j` of its result is the specification's row function of row `r`. -/
theorem ref_apply (a0 : FVec Ideal S100000x512 .f32) (a1 : FVec Ideal S512x128 .f32)
    (a2 : FVec Ideal S128 .f32) (a3 : FVec Ideal S128x64 .f32)
    (a4 : FVec Ideal S64 .f32) (a5 : FVec Ideal S64x64 .f32)
    (a6 : FVec Ideal S64 .f32) (r : Fin 100000) (j : Fin 64) :
    val_main_v13 (F := Ideal) a0 a1 a2 a3 a4 a5 a6 (ix2 r j)
      = rowMLP (fun k => a0 (ix2 r k)) (fun k n => a1 (ix2 k n)) (fun n => a2 (ix1 n)) (fun k n => a3 (ix2 k n))
          (fun n => a4 (ix1 n)) (fun k n => a5 (ix2 k n)) (fun n => a6 (ix1 n)) j := by
  rw [val_main_v13_apply, val_main_v10_apply, val_main_v12_apply, val_main_v11_apply, bidx_v12]
  simp only [lidx_v10, ridx_v10, ref_hidden2]
  rfl

end Cert.MLP

end
-- ==== Proof.HostGlue.lean ====
/-
  The host operations around the kernel, read at an index: the second weight matrix transposed before the call, the
  three bias vectors given a leading unit axis, and the result transposed back after it. Stated for any proof of the
  shape relation each operation carries, and for any element type.
-/
import proofs.«152506_g49632642072955_cont_8to1_c_73_15_alg».proof.Proof.Gen.KernelIdeal
import Idealize.ShloMosaic.Lib.ValueLayout

noncomputable section

namespace Cert.MLP

open Idealize.ShloMosaic Idealize.ShloMosaic.ValueIdx Cert.KernelIdeal

variable {α : Type}

/-- The 128 × 64 weights transposed to 64 × 128: entry `(n, k)` of the result is entry `(k, n)` of the operand. -/
theorem host_transpose_w2_apply (a3 : S128x64.Idx → α) (h : S128x64.Transposes [1, 0] S64x128) (n : Fin 64) (k : Fin 128) :
    transpose S64x128 [1, 0] a3 h (ix2 n k) = a3 (ix2 k n) :=
  transpose_ix2_apply a3 h n k

/-- A 128-vector reshaped to 1 × 128: entry `(u, n)` is entry `n` of the vector. -/
theorem host_reshape_128_apply (a2 : S128.Idx → α) (h : S128.ShapeCasts S1x128) (u : Fin 1) (n : Fin 128) :
    shapeCast S1x128 a2 h (ix2 u n) = a2 (ix1 n) :=
  shapeCast_a_1a_apply a2 h u n

/-- A 64-vector reshaped to 1 × 64: entry `(u, n)` is entry `n` of the vector. -/
theorem host_reshape_64_apply (a4 : S64.Idx → α) (h : S64.ShapeCasts S1x64) (u : Fin 1) (n : Fin 64) :
    shapeCast S1x64 a4 h (ix2 u n) = a4 (ix1 n) :=
  shapeCast_a_1a_apply a4 h u n

/-- The 64 × 100000 result transposed to 100000 × 64: entry `(r, j)` is entry `(j, r)` of the operand. -/
theorem host_transpose_out_apply (o : S64x100000.Idx → α) (h : S64x100000.Transposes [1, 0] S100000x64)
    (r : Fin 100000) (j : Fin 64) :
    transpose S100000x64 [1, 0] o h (ix2 r j) = o (ix2 j r) :=
  transpose_ix2_apply o h r j

end Cert.MLP

end
-- ==== Proof.HostValues.lean ====
/-
  The four host results the region stages, read at an index in terms of the arguments: the second weight transposed,
  the three biases as single rows.
-/
import proofs.«152506_g49632642072955_cont_8to1_c_73_15_alg».proof.Proof.Frame.Claims
import proofs.«152506_g49632642072955_cont_8to1_c_73_15_alg».proof.Proof.OutLocal
import proofs.«152506_g49632642072955_cont_8to1_c_73_15_alg».proof.Proof.RefValue
import proofs.«152506_g49632642072955_cont_8to1_c_73_15_alg».proof.Proof.HostGlue
import proofs.«152506_g49632642072955_cont_8to1_c_73_15_alg».proof.Proof.Gen.ReferenceIdeal.Run
import proofs.«152506_g49632642072955_cont_8to1_c_73_15_alg».proof.Proof.Gen.ReferenceIdeal.Read

set_option maxRecDepth 16384

noncomputable section

namespace Cert.MLP.Glue

open Cert.KernelIdeal Cert.KernelIdeal.Gen Cert.KernelIdeal.Run
open Idealize.ShloMosaic Idealize.ShloMosaic.TcCoe Idealize.ShloMosaic.ValueIdx
open Idealize.SL Idealize.SL.Sem

variable (m : (ℓ : Loc nD τ sig) → Buf (Elt Ideal) ℓ)

/-! ## The four host results the region stages, read at an index -/

/-- The staged second weight is the argument transposed. -/
theorem V_v0_apply (c : Dev nD) (n : Fin 64) (k : Fin 128) :
    (V m c main_v0 : S64x128.Idx → EReal) (ix2 n k) = (m ((c : Thread nD τ).loc main_arg3) : S128x64.Idx → EReal) (ix2 k n) := by
  have e : (V m c main_v0 : S64x128.Idx → EReal) = transpose S64x128 [1, 0] (m ((c : Thread nD τ).loc main_arg3) : S128x64.Idx → EReal) transposes_S128x64_S64x128_1_0 := by
    show StableHlo.after _ _ _ = _
    simp only [List.flatten_cons, List.flatten_nil, List.append_nil]
    after_results <;> rfl
  rw [e]; exact Cert.MLP.host_transpose_w2_apply _ _ n k

/-- The staged first bias is the argument as one row. -/
theorem V_v1_apply (c : Dev nD) (n : Fin 128) :
    (V m c main_v1 : S1x128.Idx → EReal) (ix2 0 n) = (m ((c : Thread nD τ).loc main_arg2) : S128.Idx → EReal) (ix1 n) := by
  have e : (V m c main_v1 : S1x128.Idx → EReal) = shapeCast S1x128 (m ((c : Thread nD τ).loc main_arg2) : S128.Idx → EReal) shapeCasts_S128_S1x128 := by
    show StableHlo.after _ _ _ = _
    simp only [List.flatten_cons, List.flatten_nil, List.append_nil]
    after_results <;> rfl
  rw [e]; exact Cert.MLP.host_reshape_128_apply _ _ 0 n

theorem V_v2_apply (c : Dev nD) (n : Fin 64) :
    (V m c main_v2 : S1x64.Idx → EReal) (ix2 0 n) = (m ((c : Thread nD τ).loc main_arg4) : S64.Idx → EReal) (ix1 n) := by
  have e : (V m c main_v2 : S1x64.Idx → EReal) = shapeCast S1x64 (m ((c : Thread nD τ).loc main_arg4) : S64.Idx → EReal) shapeCasts_S64_S1x64 := by
    show StableHlo.after _ _ _ = _
    simp only [List.flatten_cons, List.flatten_nil, List.append_nil]
    after_results <;> rfl
  rw [e]; exact Cert.MLP.host_reshape_64_apply _ _ 0 n

theorem V_v3_apply (c : Dev nD) (n : Fin 64) :
    (V m c main_v3 : S1x64.Idx → EReal) (ix2 0 n) = (m ((c : Thread nD τ).loc main_arg6) : S64.Idx → EReal) (ix1 n) := by
  have e : (V m c main_v3 : S1x64.Idx → EReal) = shapeCast S1x64 (m ((c : Thread nD τ).loc main_arg6) : S64.Idx → EReal) shapeCasts_S64_S1x64 := by
    show StableHlo.after _ _ _ = _
    simp only [List.flatten_cons, List.flatten_nil, List.append_nil]
    after_results <;> rfl
  rw [e]; exact Cert.MLP.host_reshape_64_apply _ _ 0 n

end Cert.MLP.Glue

end
-- ==== Proof.BlocksToArray.lean ====
/-
  From the blocks to the array. The kernel runs over eight grid points; at point `t` it writes back columns
  `12800 t …` of the 64 × 100000 result (the last point's block is cut at the array's end), computed from rows
  `12800 t …` and `12800 t + 6400 …` of the input. Every entry `(j, r)` of the result ends as the specification's row
  function of row `r` of the input, at class `j`, over the arrays as the region finds them.
-/
import proofs.«152506_g49632642072955_cont_8to1_c_73_15_alg».proof.Proof.Frame.Dats
import proofs.«152506_g49632642072955_cont_8to1_c_73_15_alg».proof.Proof.OutLocal

set_option maxRecDepth 16384

noncomputable section

namespace Cert.MLP

open Idealize.ShloMosaic Idealize.ShloMosaic.TcCoe Idealize.ShloMosaic.ValueIdx Idealize.SL.Sem
open Cert.KernelIdeal Cert.KernelIdeal.Gen Cert.KernelIdeal.Run
open Idealize.ShloMosaic.Pipeline (Dat Cfg Window)

/-! ## The index maps, decided over the eight grid points -/

/-- The two row-block windows sit side by side under the output block: block `2 t` and block `2 t + 1` of 6400 rows
    under block `t` of 12800 columns. -/
theorem idx_rows : ∀ t : Fin cfg0.N, win0_0.index t 0 = 2 * win0_8.index t 1 ∧ win0_0.index t 1 = 0
      ∧ win0_1.index t 0 = 2 * win0_8.index t 1 + 1 ∧ win0_1.index t 1 = 0
      ∧ win0_8.index t 0 = 0 ∧ win0_8.index t 1 = t.val :=
  (by decide +kernel : ∀ t : Fin grid0.N, win0_0.index t 0 = 2 * win0_8.index t 1 ∧ win0_0.index t 1 = 0
      ∧ win0_1.index t 0 = 2 * win0_8.index t 1 + 1 ∧ win0_1.index t 1 = 0
      ∧ win0_8.index t 0 = 0 ∧ win0_8.index t 1 = t.val)

/-- The output block's cut: none below the last point, 10400 columns at it. -/
theorem xsize_win8 : ∀ t : Fin cfg0.N, win0_8.xsize (grid0.coords t) 0 = 64
      ∧ (t.val < 7 → win0_8.xsize (grid0.coords t) 1 = 12800) ∧ (t.val = 7 → win0_8.xsize (grid0.coords t) 1 = 10400) :=
  (by decide +kernel : ∀ t : Fin grid0.N, win0_8.xsize (grid0.coords t) 0 = 64
      ∧ (t.val < 7 → win0_8.xsize (grid0.coords t) 1 = 12800) ∧ (t.val = 7 → win0_8.xsize (grid0.coords t) 1 = 10400))

theorem idx_w2 : ∀ t : Fin cfg0.N, win0_2.index t 0 = 0 ∧ win0_2.index t 1 = 0 :=
  (by decide +kernel : ∀ t : Fin grid0.N, win0_2.index t 0 = 0 ∧ win0_2.index t 1 = 0)
theorem idx_w3 : ∀ t : Fin cfg0.N, win0_3.index t 0 = 0 ∧ win0_3.index t 1 = 0 :=
  (by decide +kernel : ∀ t : Fin grid0.N, win0_3.index t 0 = 0 ∧ win0_3.index t 1 = 0)
theorem idx_w4 : ∀ t : Fin cfg0.N, win0_4.index t 0 = 0 ∧ win0_4.index t 1 = 0 :=
  (by decide +kernel : ∀ t : Fin grid0.N, win0_4.index t 0 = 0 ∧ win0_4.index t 1 = 0)
theorem idx_w5 : ∀ t : Fin cfg0.N, win0_5.index t 0 = 0 ∧ win0_5.index t 1 = 0 :=
  (by decide +kernel : ∀ t : Fin grid0.N, win0_5.index t 0 = 0 ∧ win0_5.index t 1 = 0)
theorem idx_w6 : ∀ t : Fin cfg0.N, win0_6.index t 0 = 0 ∧ win0_6.index t 1 = 0 :=
  (by decide +kernel : ∀ t : Fin grid0.N, win0_6.index t 0 = 0 ∧ win0_6.index t 1 = 0)
theorem idx_w7 : ∀ t : Fin cfg0.N, win0_7.index t 0 = 0 ∧ win0_7.index t 1 = 0 :=
  (by decide +kernel : ∀ t : Fin grid0.N, win0_7.index t 0 = 0 ∧ win0_7.index t 1 = 0)

variable (m : (ℓ : Loc nD τ sig) → Buf (Elt Ideal) ℓ)

/-! ## Each input buffer as entries of its array -/

/-- Window 2's block is its whole array. -/
theorem in2_eq (c : Dev nD) (t : Fin cfg0.N) : in2 (F := Ideal) m c t = V m c main_arg1 := by
  funext x
  unfold in2 Pipeline.Window.fill
  rw [dif_pos (show win0_2.moved (grid0.coords t) x = true from rfl)]
  unfold iblk
  show V m c main_arg1 (((cfg0.win 2).blk t).view.emb _) = V m c main_arg1 x
  congr 1
  funext a
  apply Fin.ext
  match a with
  | ⟨0, _⟩ => show win0_2.index t 0 * 512 + 1 * (x 0).val = (x 0).val; rw [(idx_w2 t).1]; omega
  | ⟨1, _⟩ => show win0_2.index t 1 * 128 + 1 * (x 1).val = (x 1).val; rw [(idx_w2 t).2]; omega

/-- Window 3's block is its whole array. -/
theorem in3_eq (c : Dev nD) (t : Fin cfg0.N) : in3 (F := Ideal) m c t = V m c main_v1 := by
  funext x
  unfold in3 Pipeline.Window.fill
  rw [dif_pos (show win0_3.moved (grid0.coords t) x = true from rfl)]
  unfold iblk
  show V m c main_v1 (((cfg0.win 3).blk t).view.emb _) = V m c main_v1 x
  congr 1
  funext a
  apply Fin.ext
  match a with
  | ⟨0, _⟩ => show win0_3.index t 0 * 1 + 1 * (x 0).val = (x 0).val; rw [(idx_w3 t).1]; omega
  | ⟨1, _⟩ => show win0_3.index t 1 * 128 + 1 * (x 1).val = (x 1).val; rw [(idx_w3 t).2]; omega

/-- Window 4's block is its whole array. -/
theorem in4_eq (c : Dev nD) (t : Fin cfg0.N) : in4 (F := Ideal) m c t = V m c main_v0 := by
  funext x
  unfold in4 Pipeline.Window.fill
  rw [dif_pos (show win0_4.moved (grid0.coords t) x = true from rfl)]
  unfold iblk
  show V m c main_v0 (((cfg0.win 4).blk t).view.emb _) = V m c main_v0 x
  congr 1
  funext a
  apply Fin.ext
  match a with
  | ⟨0, _⟩ => show win0_4.index t 0 * 64 + 1 * (x 0).val = (x 0).val; rw [(idx_w4 t).1]; omega
  | ⟨1, _⟩ => show win0_4.index t 1 * 128 + 1 * (x 1).val = (x 1).val; rw [(idx_w4 t).2]; omega

/-- Window 5's block is its whole array. -/
theorem in5_eq (c : Dev nD) (t : Fin cfg0.N) : in5 (F := Ideal) m c t = V m c main_v2 := by
  funext x
  unfold in5 Pipeline.Window.fill
  rw [dif_pos (show win0_5.moved (grid0.coords t) x = true from rfl)]
  unfold iblk
  show V m c main_v2 (((cfg0.win 5).blk t).view.emb _) = V m c main_v2 x
  congr 1
  funext a
  apply Fin.ext
  match a with
  | ⟨0, _⟩ => show win0_5.index t 0 * 1 + 1 * (x 0).val = (x 0).val; rw [(idx_w5 t).1]; omega
  | ⟨1, _⟩ => show win0_5.index t 1 * 64 + 1 * (x 1).val = (x 1).val; rw [(idx_w5 t).2]; omega

/-- Window 6's block is its whole array. -/
theorem in6_eq (c : Dev nD) (t : Fin cfg0.N) : in6 (F := Ideal) m c t = V m c main_arg5 := by
  funext x
  unfold in6 Pipeline.Window.fill
  rw [dif_pos (show win0_6.moved (grid0.coords t) x = true from rfl)]
  unfold iblk
  show V m c main_arg5 (((cfg0.win 6).blk t).view.emb _) = V m c main_arg5 x
  congr 1
  funext a
  apply Fin.ext
  match a with
  | ⟨0, _⟩ => show win0_6.index t 0 * 64 + 1 * (x 0).val = (x 0).val; rw [(idx_w6 t).1]; omega
  | ⟨1, _⟩ => show win0_6.index t 1 * 64 + 1 * (x 1).val = (x 1).val; rw [(idx_w6 t).2]; omega

/-- Window 7's block is its whole array. -/
theorem in7_eq (c : Dev nD) (t : Fin cfg0.N) : in7 (F := Ideal) m c t = V m c main_v3 := by
  funext x
  unfold in7 Pipeline.Window.fill
  rw [dif_pos (show win0_7.moved (grid0.coords t) x = true from rfl)]
  unfold iblk
  show V m c main_v3 (((cfg0.win 7).blk t).view.emb _) = V m c main_v3 x
  congr 1
  funext a
  apply Fin.ext
  match a with
  | ⟨0, _⟩ => show win0_7.index t 0 * 1 + 1 * (x 0).val = (x 0).val; rw [(idx_w7 t).1]; omega
  | ⟨1, _⟩ => show win0_7.index t 1 * 64 + 1 * (x 1).val = (x 1).val; rw [(idx_w7 t).2]; omega

/-- A row of the first row-block buffer is a row of the input array. -/
theorem in0_apply (c : Dev nD) (t : Fin cfg0.N) (r : Fin 6400) (k : Fin 512) (R : Fin 100000)
    (hR : R.val = win0_0.index t 0 * 6400 + r.val) :
    in0 (F := Ideal) m c t (ix2 r k) = V m c main_arg0 (ix2 R k) := by
  have hm : win0_0.moved (grid0.coords t) (ix2 r k) = true := (win0_0.moved_iff _ _).mpr fun a => by
    match a with
    | ⟨0, _⟩ => show r.val < win0_0.xsize (grid0.coords t) 0; rw [(xsize_win0 t).1]; exact r.isLt
    | ⟨1, _⟩ => show k.val < win0_0.xsize (grid0.coords t) 1; rw [(xsize_win0 t).2]; exact k.isLt
  unfold in0 Pipeline.Window.fill
  rw [dif_pos hm]
  unfold iblk
  show V m c main_arg0 (((cfg0.win 0).blk t).view.emb _) = V m c main_arg0 (ix2 R k)
  congr 1
  funext a
  apply Fin.ext
  match a with
  | ⟨0, _⟩ => show win0_0.index t 0 * 6400 + 1 * r.val = R.val; omega
  | ⟨1, _⟩ => show win0_0.index t 1 * 512 + 1 * k.val = k.val; rw [(idx_rows t).2.1]; omega

/-- A row of the second row-block buffer below the cut is a row of the input array. -/
theorem in1_apply (c : Dev nD) (t : Fin cfg0.N) (r : Fin 6400) (k : Fin 512) (R : Fin 100000)
    (hr : r.val < win0_1.xsize (grid0.coords t) 0) (hR : R.val = win0_1.index t 0 * 6400 + r.val) :
    in1 (F := Ideal) m c t (ix2 r k) = V m c main_arg0 (ix2 R k) := by
  have hm : win0_1.moved (grid0.coords t) (ix2 r k) = true := (win0_1.moved_iff _ _).mpr fun a => by
    match a with
    | ⟨0, _⟩ => exact hr
    | ⟨1, _⟩ => show k.val < win0_1.xsize (grid0.coords t) 1; rw [(xsize_win1 t).1]; exact k.isLt
  unfold in1 Pipeline.Window.fill
  rw [dif_pos hm]
  unfold iblk
  show V m c main_arg0 (((cfg0.win 1).blk t).view.emb _) = V m c main_arg0 (ix2 R k)
  congr 1
  funext a
  apply Fin.ext
  match a with
  | ⟨0, _⟩ => show win0_1.index t 0 * 6400 + 1 * r.val = R.val; omega
  | ⟨1, _⟩ => show win0_1.index t 1 * 512 + 1 * k.val = k.val; rw [(idx_rows t).2.2.2.1]; omega

/-! ## The result array -/

/-- The 64 × 100000 array the region leaves: entry `(j, r)` is the specification's row function of row `r` of the input,
    at class `j`, with the weights and biases as the region finds them (the second weight matrix transposed, the
    biases as rows). -/
def G8 (c : Dev nD) : Buf (Elt Ideal) ((cfg0.win 8).arr.view.loc (c : Thread nD τ)) :=
  fun i : S64x100000.Idx =>
    rowMLP (fun k => V m c main_arg0 (ix2 (i 1) k)) (fun k n => V m c main_arg1 (ix2 k n)) (fun n => V m c main_v1 (ix2 0 n))
      (fun k n => V m c main_v0 (ix2 n k)) (fun n => V m c main_v2 (ix2 0 n)) (fun k n => V m c main_arg5 (ix2 k n))
      (fun n => V m c main_v3 (ix2 0 n)) (i 0)

theorem G8_apply (c : Dev nD) (j : Fin 64) (r : Fin 100000) :
    G8 m c (ix2 j r) = rowMLP (fun k => V m c main_arg0 (ix2 r k)) (fun k n => V m c main_arg1 (ix2 k n)) (fun n => V m c main_v1 (ix2 0 n))
      (fun k n => V m c main_v0 (ix2 n k)) (fun n => V m c main_v2 (ix2 0 n)) (fun k n => V m c main_arg5 (ix2 k n))
      (fun n => V m c main_v3 (ix2 0 n)) j := rfl

/-- The same at an index given by its coordinates. -/
theorem G8_apply' (c : Dev nD) (i : S64x100000.Idx) (j : Fin 64) (r : Fin 100000) (h0 : (i 0).val = j.val) (h1 : (i 1).val = r.val) :
    G8 m c i = rowMLP (fun k => V m c main_arg0 (ix2 r k)) (fun k n => V m c main_arg1 (ix2 k n)) (fun n => V m c main_v1 (ix2 0 n))
      (fun k n => V m c main_v0 (ix2 n k)) (fun n => V m c main_v2 (ix2 0 n)) (fun k n => V m c main_arg5 (ix2 k n))
      (fun n => V m c main_v3 (ix2 0 n)) j := by
  obtain rfl : i = ix2 j r := funext fun a => Fin.ext (by
    match a with
    | ⟨0, _⟩ => exact h0
    | ⟨1, _⟩ => exact h1)
  rfl

/-- WHAT POINT `t` WRITES BACK is block `t` of the result array. -/
theorem flushed8_eq (c : Dev nD) (t : Fin cfg0.N) :
    (dats (F := Ideal) m 0 c).flushed 8 t = ((cfg0.win 8).blk t).view.read (Elt Ideal) (G8 m c) := by
  show (cfg0.win 8).cut (grid0.coords t) ((dats (F := Ideal) m 0 c).after 8 t) = _
  rw [after_8]
  funext y
  show outBlock (F := Ideal) (in0 m c t) (in1 m c t) (in2 m c t) (in3 m c t) (in4 m c t) (in5 m c t) (in6 m c t) (in7 m c t)
      (win0_8.xinj (grid0.coords t) y) = G8 m c (((cfg0.win 8).blk t).view.emb y)
  obtain ⟨i00, i01, i10, i11, i80, i81⟩ := idx_rows t
  have hE0 : ((((cfg0.win 8).blk t).view.emb y) 0).val = win0_8.index t 0 * 64 + 1 * (y 0).val := rfl
  have hE1 : ((((cfg0.win 8).blk t).view.emb y) 1).val = win0_8.index t 1 * 12800 + 1 * (y 1).val := rfl
  have hj : (y 0).val < 64 := Nat.lt_of_lt_of_le (y 0).isLt (win0_8.xsize_le (grid0.coords t) 0)
  have h8 : (y 1).val < win0_8.xsize (grid0.coords t) 1 := (y 1).isLt
  have hc : (y 1).val < 12800 := Nat.lt_of_lt_of_le h8 (win0_8.xsize_le (grid0.coords t) 1)
  rw [in2_eq, in3_eq, in4_eq, in5_eq, in6_eq, in7_eq]
  rw [G8_apply' m c _ ⟨(y 0).val, hj⟩ ((((cfg0.win 8).blk t).view.emb y) 1) (by rw [hE0, i80]; show _ = (y 0).val; omega) rfl]
  by_cases hl : (y 1).val < 6400
  · rw [outBlock_left_apply _ _ _ _ _ _ _ _ _ ⟨(y 0).val, hj⟩ ⟨(y 1).val, hl⟩ rfl rfl]
    congr 1
    funext k
    refine in0_apply m c t ⟨(y 1).val, hl⟩ k _ ?_
    rw [hE1, i00]
    show _ = 2 * win0_8.index t 1 * 6400 + (y 1).val
    omega
  · have hr : (y 1).val - 6400 < 6400 := by omega
    have hy1 : (y 1).val = 6400 + ((y 1).val - 6400) := by omega
    have hm : (y 1).val - 6400 < win0_1.xsize (grid0.coords t) 0 := by
      have := (xsize_win1 t).2
      omega
    rw [outBlock_right_apply _ _ _ _ _ _ _ _ _ ⟨(y 0).val, hj⟩ ⟨(y 1).val - 6400, hr⟩ rfl hy1]
    congr 1
    funext k
    refine in1_apply m c t ⟨(y 1).val - 6400, hr⟩ k _ hm ?_
    rw [hE1, i10]
    show _ = (2 * win0_8.index t 1 + 1) * 6400 + ((y 1).val - 6400)
    omega

/-- An index of the array is in point `t`'s block iff each coordinate is in the block's range on its axis. -/
theorem mem_blk8 (t : Fin cfg0.N) (i : S64x100000.Idx) :
    i ∈ ((cfg0.win 8).blk t).view.set ↔ ∀ a : Fin 2, win0_8.index t a * S64x12800.size a ≤ (i a).val
      ∧ (i a).val < win0_8.index t a * S64x12800.size a + win0_8.xsize (grid0.coords t) a := by
  show i ∈ ((View.whole main_v4).slice (win0_8.rect t)).set ↔ _
  rw [View.set_slice_whole, Rect.mem_set_unit]
  exact Iff.rfl

/-- The eight blocks cover the array: column `r` lies in the block of point `r / 12800`. -/
theorem cover8 (i : S64x100000.Idx) :
    ∃ t : Fin cfg0.N, (cfg0.win 8).flush t = true ∧ i ∈ ((cfg0.win 8).blk t).view.set := by
  have hi0 : (i 0).val < 64 := (i 0).isLt
  have hi1 : (i 1).val < 100000 := (i 1).isLt
  have hN : grid0.N = 8 := N_0
  have hq : (i 1).val / 12800 < cfg0.N := by show _ < grid0.N; omega
  refine ⟨⟨(i 1).val / 12800, hq⟩, flush0_8 _, ?_⟩
  rw [mem_blk8]
  obtain ⟨-, -, -, -, i80, i81⟩ := idx_rows ⟨(i 1).val / 12800, hq⟩
  obtain ⟨x0, x1, x2⟩ := xsize_win8 ⟨(i 1).val / 12800, hq⟩
  have ht : (⟨(i 1).val / 12800, hq⟩ : Fin cfg0.N).val = (i 1).val / 12800 := rfl
  intro a
  match a with
  | ⟨0, _⟩ =>
    show win0_8.index ⟨(i 1).val / 12800, hq⟩ 0 * 64 ≤ (i 0).val
      ∧ (i 0).val < win0_8.index ⟨(i 1).val / 12800, hq⟩ 0 * 64 + win0_8.xsize (grid0.coords ⟨(i 1).val / 12800, hq⟩) 0
    rw [i80, x0]; omega
  | ⟨1, _⟩ =>
    show win0_8.index ⟨(i 1).val / 12800, hq⟩ 1 * 12800 ≤ (i 1).val
      ∧ (i 1).val < win0_8.index ⟨(i 1).val / 12800, hq⟩ 1 * 12800 + win0_8.xsize (grid0.coords ⟨(i 1).val / 12800, hq⟩) 1
    rw [i81, ht]
    by_cases h7 : (i 1).val / 12800 < 7
    · rw [x1 h7]; omega
    · rw [x2 (by omega)]; omega

/-- THE ARRAY after the region: the result array. -/
theorem final8 (c : Dev nD) : (dats (F := Ideal) m 0 c).arrAt 8 cfg0.N = G8 m c :=
  (dats (F := Ideal) m 0 c).arrAt_eq_of_cover 8 (G8 m c) (fun t _ => flushed8_eq m c t) (cover8)

end Cert.MLP

end
-- ==== Proof.FrameK.Body.lean ====
/-
  (The word-level program: the same text as for its reading over the extended reals, of which only the frame is used.)
  The kernel body, run once on whole staging buffers. It loads the weights, the biases and the two row blocks, and
  stores the transposed results of the three layers on the first row block into the left 6400 columns of the
  64 × 12800 output block and those on the second into the right 6400 columns. The inputs are left as they were; the
  output block ends at a function of what the eight input buffers held (its two stores, which tile it), whatever it
  held before.
-/
import proofs.«152506_g49632642072955_cont_8to1_c_73_15_alg».proof.Proof.Gen.Kernel.Launch
import proofs.«152506_g49632642072955_cont_8to1_c_73_15_alg».proof.Proof.Gen.Kernel.Points
import proofs.«152506_g49632642072955_cont_8to1_c_73_15_alg».proof.Proof.Gen.Kernel.Skeleton
import Idealize.ShloMosaic.Lib.Pipeline.Kit
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: every load reads a whole staging buffer; the two stores write the left and the
right half (6400 columns each) of the 64 × 12800 output block. -/

abbrev rX : Rect S6400x512 := Rect.unit (s := S6400x512) ![0, 0] S6400x512.size inb_S6400x512_S6400x512_0_0
abbrev rW1 : Rect S512x128 := Rect.unit (s := S512x128) ![0, 0] S512x128.size inb_S512x128_S512x128_0_0
abbrev rC1 : Rect S1x128 := Rect.unit (s := S1x128) ![0, 0] S1x128.size inb_S1x128_S1x128_0_0
abbrev rW2 : Rect S64x128 := Rect.unit (s := S64x128) ![0, 0] S64x128.size inb_S64x128_S64x128_0_0
abbrev rC2 : Rect S1x64 := Rect.unit (s := S1x64) ![0, 0] S1x64.size inb_S1x64_S1x64_0_0
abbrev rC3 : Rect S1x64 := rC2
abbrev rW3 : Rect S64x64 := Rect.unit (s := S64x64) ![0, 0] S64x64.size inb_S64x64_S64x64_0_0
abbrev rLeft : Rect S64x12800 := Rect.unit (s := S64x12800) ![0, 0] S64x6400.size inb_S64x12800_S64x6400_0_0
abbrev rRight : Rect S64x12800 := Rect.unit (s := S64x12800) ![0, 6400] S64x6400.size inb_S64x12800_S64x6400_0_6400

/-- What the body leaves in the output block, as a function of what the eight input buffers hold: the right half
    is the three layers applied to the second row block, the left half the same of the first (pieces last first). -/
def outBlock (x0 x1 : Vec F S6400x512 .f32) (x2 : Vec F S512x128 .f32) (x3 : Vec F S1x128 .f32) (x4 : Vec F S64x128 .f32)
    (x5 : Vec F S1x64 .f32) (x6 : Vec F S64x64 .f32) (x7 : Vec F S1x64 .f32) : Vec F S64x12800 .f32 :=
  View.canon [⟨rRight, k0_pay1 (k0_pay2 (View.ld x4 rW2)) (View.ld x6 rW3) (k0_pay4 (View.ld x2 rW1) (View.ld x1 rX)) (k0_pay5 (View.ld x3 rC1)) (View.ld x5 rC2) (View.ld x7 rC3)⟩,
    ⟨rLeft, k0_pay3 (View.ld x2 rW1) (View.ld x4 rW2) (View.ld x6 rW3) (View.ld x0 rX) (View.ld x3 rC1) (View.ld x5 rC2) (View.ld x7 rC3)⟩]

/-- The two halves tile the block. -/
theorem cover_out (p0 p1 : Vec F S64x6400 .f32) (y : S64x12800.Idx) :
    ∃ pc ∈ ([⟨rRight, p0⟩, ⟨rLeft, p1⟩] : List (View.Piece (Elt F) S64x12800 .f32)), y ∈ pc.1.set :=
  View.cover_of_tiled [⟨rRight, p0⟩, ⟨rLeft, p1⟩] S64x6400.size (by rfl) y

set_option maxHeartbeats 4000000 in
/-- The body on whole staging buffers: the eight inputs are read and left as they were, the output block ends at
    `outBlock` of what they hold, whatever it held. -/
theorem sound_kernel (c : Dev nD) (E : Set ℕ) (i : grid0.Coords)
    (arg1 : Memref sig .tc .vmem S6400x512 .f32) (harg1 : arg1.IsWhole) (arg2 : Memref sig .tc .vmem S6400x512 .f32) (harg2 : arg2.IsWhole)
    (arg3 : Memref sig .tc .vmem S512x128 .f32) (harg3 : arg3.IsWhole) (arg4 : Memref sig .tc .vmem S1x128 .f32) (harg4 : arg4.IsWhole)
    (arg5 : Memref sig .tc .vmem S64x128 .f32) (harg5 : arg5.IsWhole) (arg6 : Memref sig .tc .vmem S1x64 .f32) (harg6 : arg6.IsWhole)
    (arg7 : Memref sig .tc .vmem S64x64 .f32) (harg7 : arg7.IsWhole) (arg8 : Memref sig .tc .vmem S1x64 .f32) (harg8 : arg8.IsWhole)
    (arg9 : Memref sig .tc .vmem S64x12800 .f32) (harg9 : arg9.IsWhole)
    (x0 x1 : Vec F S6400x512 .f32) (x2 : Vec F S512x128 .f32) (x3 : Vec F S1x128 .f32) (x4 : Vec F S64x128 .f32)
    (x5 : Vec F S1x64 .f32) (x6 : Vec F S64x64 .f32) (x7 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (outBlock x0 x1 x2 x3 x4 x5 x6 x7)) -∗ K ⟨⟩))
      ⊢ wp frame (wpE (defs₀ (F := F)) Variants.none c none) E
          (cc0__mlp_block_kernel i arg1 harg1 arg2 harg2 arg3 harg3 arg4 harg4 arg5 harg5 arg6 harg6 arg7 harg7 arg8 harg8 arg9 harg9) K := by
  simp only [cc0__mlp_block_kernel_eq_skeleton]; unfold cc0__mlp_block_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover_out _ _)

end Cert.Kernel.Run

end
-- ==== Proof.FrameK.Dats.lean ====
/-
  (The word-level program: the same text as for its reading over the extended reals, of which only the frame is used.)
  What each staging buffer holds at each of the eight grid points. An input buffer holds its window's block of the
  array as the region finds it: on the part of the block inside the array (the last odd row block overhangs the
  100000 rows by 2400), with what the buffer held before elsewhere; the weights' and biases' windows are their whole
  arrays. The output buffer holds the body's function of those. The body's run at a point then gives the pipeline's
  obligation, either with the output's contents named — under the hypothesis that the part of the output block inside
  the array does not depend on the rows past the array's end — or with the output forgotten.
-/
import proofs.«152506_g49632642072955_cont_8to1_c_73_15_alg».proof.Proof.FrameK.Body

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffers as the region finds them: the launch contents after the host operations before it (the
    second weight transposed, the three biases reshaped to rows). -/
abbrev V (c : Dev nD) (b : Ref sig .tc) : Buf (Elt F) ((c : Thread nD τ).loc b) :=
  StableHlo.after ([hostOps0] : List (List (HloOp τ sig (Elt F)))).flatten (fun b => m (c, b)) b

theorem hfresh0 : (hostOps0 : List (HloOp τ sig (Elt F))).Forall fun op => op.fresh = ∅ := ⟨rfl, rfl, rfl, rfl⟩

/-- The program is: the host operations, the region, the final transposition. -/
theorem hmain (𝒱₀ : Variants) : Pipeline.HMainK (Ix := Unit) (Name := ℕ) (U := UR sig nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0] [hostOps1] hostOps0_sub hfresh0 (fun c => (main_chain c).trans rfl)

/-! ## The windows' blocks -/

/-- Window `w`'s block at point `t`, its part inside the array, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer at point `t`: its block, filled out past the array's end (where there is such a part) with the zero word. -/
def in0 (c : Dev nD) (t : Fin cfg0.N) : S6400x512.Idx → Elt F .f32 :=
  win0_0.fill (grid0.coords t) (fun _ => Scalar.ofBits .f32 0#32) (iblk m c 0 t)
/-- Input window 1's staging buffer at point `t`: its block, filled out past the array's end (where there is such a part) with the zero word. -/
def in1 (c : Dev nD) (t : Fin cfg0.N) : S6400x512.Idx → Elt F .f32 :=
  win0_1.fill (grid0.coords t) (fun _ => Scalar.ofBits .f32 0#32) (iblk m c 1 t)
/-- Input window 2's staging buffer at point `t`: its block, filled out past the array's end (where there is such a part) with the zero word. -/
def in2 (c : Dev nD) (t : Fin cfg0.N) : S512x128.Idx → Elt F .f32 :=
  win0_2.fill (grid0.coords t) (fun _ => Scalar.ofBits .f32 0#32) (iblk m c 2 t)
/-- Input window 3's staging buffer at point `t`: its block, filled out past the array's end (where there is such a part) with the zero word. -/
def in3 (c : Dev nD) (t : Fin cfg0.N) : S1x128.Idx → Elt F .f32 :=
  win0_3.fill (grid0.coords t) (fun _ => Scalar.ofBits .f32 0#32) (iblk m c 3 t)
/-- Input window 4's staging buffer at point `t`: its block, filled out past the array's end (where there is such a part) with the zero word. -/
def in4 (c : Dev nD) (t : Fin cfg0.N) : S64x128.Idx → Elt F .f32 :=
  win0_4.fill (grid0.coords t) (fun _ => Scalar.ofBits .f32 0#32) (iblk m c 4 t)
/-- Input window 5's staging buffer at point `t`: its block, filled out past the array's end (where there is such a part) with the zero word. -/
def in5 (c : Dev nD) (t : Fin cfg0.N) : S1x64.Idx → Elt F .f32 :=
  win0_5.fill (grid0.coords t) (fun _ => Scalar.ofBits .f32 0#32) (iblk m c 5 t)
/-- Input window 6's staging buffer at point `t`: its block, filled out past the array's end (where there is such a part) with the zero word. -/
def in6 (c : Dev nD) (t : Fin cfg0.N) : S64x64.Idx → Elt F .f32 :=
  win0_6.fill (grid0.coords t) (fun _ => Scalar.ofBits .f32 0#32) (iblk m c 6 t)
/-- Input window 7's staging buffer at point `t`: its block, filled out past the array's end (where there is such a part) with the zero word. -/
def in7 (c : Dev nD) (t : Fin cfg0.N) : S1x64.Idx → Elt F .f32 :=
  win0_7.fill (grid0.coords t) (fun _ => Scalar.ofBits .f32 0#32) (iblk m c 7 t)

/-- The proof data: the arrays as the region finds them; each input buffer at its block; the output buffer at the
    body's function of those; the row array read through two windows held half and half. -/
def dats (_ : Fin 1) (c : Dev nD) : Dat τ (Elt F) Unit ℕ (UR sig nD τ) ℕ cfg0 c where
  A w := V m c (Pipeline.arrRef spec0 w)
  after w t := match w with
    | ⟨0, _⟩ => in0 m c t
    | ⟨1, _⟩ => in1 m c t
    | ⟨2, _⟩ => in2 m c t
    | ⟨3, _⟩ => in3 m c t
    | ⟨4, _⟩ => in4 m c t
    | ⟨5, _⟩ => in5 m c t
    | ⟨6, _⟩ => in6 m c t
    | ⟨7, _⟩ => in7 m c t
    | ⟨8, _⟩ => outBlock (in0 m c t) (in1 m c t) (in2 m c t) (in3 m c t) (in4 m c t) (in5 m c t) (in6 m c t) (in7 m c t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = in0 m c t := by dsimp only [dats]
theorem after_1 (c : Dev nD) (t : Fin cfg0.N) : (dats m 0 c).after 1 t = in1 m c t := by dsimp only [dats]
theorem after_2 (c : Dev nD) (t : Fin cfg0.N) : (dats m 0 c).after 2 t = in2 m c t := by dsimp only [dats]
theorem after_3 (c : Dev nD) (t : Fin cfg0.N) : (dats m 0 c).after 3 t = in3 m c t := by dsimp only [dats]
theorem after_4 (c : Dev nD) (t : Fin cfg0.N) : (dats m 0 c).after 4 t = in4 m c t := by dsimp only [dats]
theorem after_5 (c : Dev nD) (t : Fin cfg0.N) : (dats m 0 c).after 5 t = in5 m c t := by dsimp only [dats]
theorem after_6 (c : Dev nD) (t : Fin cfg0.N) : (dats m 0 c).after 6 t = in6 m c t := by dsimp only [dats]
theorem after_7 (c : Dev nD) (t : Fin cfg0.N) : (dats m 0 c).after 7 t = in7 m c t := by dsimp only [dats]
theorem after_8 (c : Dev nD) (t : Fin cfg0.N) : (dats m 0 c).after 8 t
    = outBlock (in0 m c t) (in1 m c t) (in2 m c t) (in3 m c t) (in4 m c t) (in5 m c t) (in6 m c t) (in7 m c t) := by dsimp only [dats]

/-- Input window 0's buffer holds its block at every point, fetched there or not. -/
theorem before_0 (c : Dev nD) (t : Fin cfg0.N) (d) : (dats m 0 c).before 0 t d = (dats m 0 c).fetched 0 t d :=
  (dats m 0 c).before_in_eq_fetched 0 rfl (fun _ => rfl)
    (fun t t' h => by funext a; show Pipeline.Clip.of (win0_0.index t a) _ _ = Pipeline.Clip.of (win0_0.index t' a) _ _; rw [h])
    (fun t => by rw [after_0]; exact win0_0.cut_fill _ _ _) t d
/-- Input window 1's buffer holds its block at every point, fetched there or not. -/
theorem before_1 (c : Dev nD) (t : Fin cfg0.N) (d) : (dats m 0 c).before 1 t d = (dats m 0 c).fetched 1 t d :=
  (dats m 0 c).before_in_eq_fetched 1 rfl (fun _ => rfl)
    (fun t t' h => by funext a; show Pipeline.Clip.of (win0_1.index t a) _ _ = Pipeline.Clip.of (win0_1.index t' a) _ _; rw [h])
    (fun t => by rw [after_1]; exact win0_1.cut_fill _ _ _) t d
/-- Input window 2's buffer holds its block at every point, fetched there or not. -/
theorem before_2 (c : Dev nD) (t : Fin cfg0.N) (d) : (dats m 0 c).before 2 t d = (dats m 0 c).fetched 2 t d :=
  (dats m 0 c).before_in_eq_fetched 2 rfl (fun _ => rfl)
    (fun _ _ _ => rfl)
    (fun t => by rw [after_2]; exact win0_2.cut_fill _ _ _) t d
/-- Input window 3's buffer holds its block at every point, fetched there or not. -/
theorem before_3 (c : Dev nD) (t : Fin cfg0.N) (d) : (dats m 0 c).before 3 t d = (dats m 0 c).fetched 3 t d :=
  (dats m 0 c).before_in_eq_fetched 3 rfl (fun _ => rfl)
    (fun _ _ _ => rfl)
    (fun t => by rw [after_3]; exact win0_3.cut_fill _ _ _) t d
/-- Input window 4's buffer holds its block at every point, fetched there or not. -/
theorem before_4 (c : Dev nD) (t : Fin cfg0.N) (d) : (dats m 0 c).before 4 t d = (dats m 0 c).fetched 4 t d :=
  (dats m 0 c).before_in_eq_fetched 4 rfl (fun _ => rfl)
    (fun _ _ _ => rfl)
    (fun t => by rw [after_4]; exact win0_4.cut_fill _ _ _) t d
/-- Input window 5's buffer holds its block at every point, fetched there or not. -/
theorem before_5 (c : Dev nD) (t : Fin cfg0.N) (d) : (dats m 0 c).before 5 t d = (dats m 0 c).fetched 5 t d :=
  (dats m 0 c).before_in_eq_fetched 5 rfl (fun _ => rfl)
    (fun _ _ _ => rfl)
    (fun t => by rw [after_5]; exact win0_5.cut_fill _ _ _) t d
/-- Input window 6's buffer holds its block at every point, fetched there or not. -/
theorem before_6 (c : Dev nD) (t : Fin cfg0.N) (d) : (dats m 0 c).before 6 t d = (dats m 0 c).fetched 6 t d :=
  (dats m 0 c).before_in_eq_fetched 6 rfl (fun _ => rfl)
    (fun _ _ _ => rfl)
    (fun t => by rw [after_6]; exact win0_6.cut_fill _ _ _) t d
/-- Input window 7's buffer holds its block at every point, fetched there or not. -/
theorem before_7 (c : Dev nD) (t : Fin cfg0.N) (d) : (dats m 0 c).before 7 t d = (dats m 0 c).fetched 7 t d :=
  (dats m 0 c).before_in_eq_fetched 7 rfl (fun _ => rfl)
    (fun _ _ _ => rfl)
    (fun t => by rw [after_7]; exact win0_7.cut_fill _ _ _) t d

/-- A buffer just fetched into holds the block on the part inside the array and what it held elsewhere. -/
theorem fetched_eq (c : Dev nD) (w : Fin cfg0.W) (t : Fin cfg0.N) (d) :
    (dats m 0 c).fetched w t d = (cfg0.win w).fill (cfg0.grid.coords t) d (iblk m c w t) := by
  unfold Dat.fetched Dat.blockOf iblk; rw [A_eq]

/-- Window 2's blocks are the whole array: a fetch leaves nothing of what the buffer held. -/
theorem fetched_2 (c : Dev nD) (t : Fin cfg0.N) (d) : (dats m 0 c).fetched 2 t d = in2 m c t :=
  ((dats m 0 c).fetched_of_clip_none 2 t (fun _ => rfl) d _).trans (fetched_eq m c 2 t _)
/-- Window 3's blocks are the whole array: a fetch leaves nothing of what the buffer held. -/
theorem fetched_3 (c : Dev nD) (t : Fin cfg0.N) (d) : (dats m 0 c).fetched 3 t d = in3 m c t :=
  ((dats m 0 c).fetched_of_clip_none 3 t (fun _ => rfl) d _).trans (fetched_eq m c 3 t _)
/-- Window 4's blocks are the whole array: a fetch leaves nothing of what the buffer held. -/
theorem fetched_4 (c : Dev nD) (t : Fin cfg0.N) (d) : (dats m 0 c).fetched 4 t d = in4 m c t :=
  ((dats m 0 c).fetched_of_clip_none 4 t (fun _ => rfl) d _).trans (fetched_eq m c 4 t _)
/-- Window 5's blocks are the whole array: a fetch leaves nothing of what the buffer held. -/
theorem fetched_5 (c : Dev nD) (t : Fin cfg0.N) (d) : (dats m 0 c).fetched 5 t d = in5 m c t :=
  ((dats m 0 c).fetched_of_clip_none 5 t (fun _ => rfl) d _).trans (fetched_eq m c 5 t _)
/-- Window 6's blocks are the whole array: a fetch leaves nothing of what the buffer held. -/
theorem fetched_6 (c : Dev nD) (t : Fin cfg0.N) (d) : (dats m 0 c).fetched 6 t d = in6 m c t :=
  ((dats m 0 c).fetched_of_clip_none 6 t (fun _ => rfl) d _).trans (fetched_eq m c 6 t _)
/-- Window 7's blocks are the whole array: a fetch leaves nothing of what the buffer held. -/
theorem fetched_7 (c : Dev nD) (t : Fin cfg0.N) (d) : (dats m 0 c).fetched 7 t d = in7 m c t :=
  ((dats m 0 c).fetched_of_clip_none 7 t (fun _ => rfl) d _).trans (fetched_eq m c 7 t _)

/-! ## The body at a point -/

/-- What the body is called with: each input buffer at what the point finds there, the output buffer at anything. -/
def bodyPre (c : Dev nD) (t : Fin cfg0.N) : sProp 𝕄 :=
  iprop((∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ X, owns (c : Thread nD τ) (st0_8 t) fullShare X))

/-- What it returns of the inputs: the two row-block buffers still at their blocks on the part inside the array, the
    weights and biases at theirs. -/
def bodyPostIn (c : Dev nD) (t : Fin cfg0.N) : sProp 𝕄 :=
  iprop((∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- and of the output: the body's function of what the two row-block buffers held and of the weights and biases. -/
def bodyPostOut (c : Dev nD) (t : Fin cfg0.N) : sProp 𝕄 :=
  iprop(∃ d0 d1, owns (c : Thread nD τ) (st0_8 t) fullShare (outBlock ((dats m 0 c).fetched 0 t d0) ((dats m 0 c).fetched 1 t d1) (in2 m c t) (in3 m c t) (in4 m c t) (in5 m c t) (in6 m c t) (in7 m c t)))

theorem sound_body (c : Dev nD) (t : Fin cfg0.N) (K : PUnit → sProp 𝕄) :
    iprop(bodyPre m c t ∗ (iprop(bodyPostIn m c t ∗ bodyPostOut m c t) -∗ K ⟨⟩))
      ⊢ wp frame (wpE (defs₀ (F := F)) Variants.none c none) Set.univ (bodyAt0 t) K := by
  unfold bodyPre bodyPostIn bodyPostOut bodyAt0
  simp only [before_0, before_1, before_2, before_3, before_4, before_5, before_6, before_7,
    fetched_2, fetched_3, fetched_4, fetched_5, fetched_6, fetched_7]
  rw [after_0, after_1, after_2, after_3, after_4, after_5, after_6, after_7]
  iintro ⟨⟨⟨%d0, H0⟩, ⟨%d1, H1⟩, ⟨%d2, H2⟩, ⟨%d3, H3⟩, ⟨%d4, H4⟩, ⟨%d5, H5⟩, ⟨%d6, H6⟩, ⟨%d7, H7⟩, ⟨%X, H8⟩⟩, Hk⟩
  iapply (sound_kernel c Set.univ (grid0.coords t) _ _ _ _ _ _ _ _ _ _ _ _ _ _ _ _ _ _
    ((dats m 0 c).fetched 0 t d0) ((dats m 0 c).fetched 1 t d1) (in2 m c t) (in3 m c t) (in4 m c t) (in5 m c t) (in6 m c t) (in7 m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists X; iexact H8
  iintro ⟨H0, H1, H2, H3, H4, H5, H6, H7, H8⟩
  iapply Hk
  isplitr [H8]
  · isplitl [H0]
    · iexists d0
      rw [in0, win0_0.cut_fill, ← fetched_eq m c 0 t d0]; iexact H0
    isplitl [H1]
    · iexists d1
      rw [in1, win0_1.cut_fill, ← fetched_eq m c 1 t d1]; iexact H1
    isplitl [H2]; · iexact H2
    isplitl [H3]; · iexact H3
    isplitl [H4]; · iexact H4
    isplitl [H5]; · iexact H5
    isplitl [H6]; · iexact H6
    iexact H7
  · iexists d0; iexists d1; iexact H8

/-! ## The body obligation -/

/-- The output block's part inside the array does not depend on what the two row-block buffers hold past the array's
    end: the hypothesis under which the output's contents are named exactly. -/
def OutLocal : Prop := ∀ (c : Dev nD) (t : Fin cfg0.N) d0 d1,
  win0_8.cut (grid0.coords t) (outBlock ((dats m 0 c).fetched 0 t d0) ((dats m 0 c).fetched 1 t d1) (in2 m c t) (in3 m c t) (in4 m c t) (in5 m c t) (in6 m c t) (in7 m c t))
    = win0_8.cut (grid0.coords t) (outBlock (in0 m c t) (in1 m c t) (in2 m c t) (in3 m c t) (in4 m c t) (in5 m c t) (in6 m c t) (in7 m c t))

theorem body_obligation (hloc : OutLocal m) (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, H0, H1, H2, H3, H4, H5, H6, H7, ⟨%d8, H8⟩⟩
  iapply (sound_body m c t _)
  isplitl [H0 H1 H2 H3 H4 H5 H6 H7 H8]
  · unfold bodyPre
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  iintro ⟨Hin, Hout⟩
  isplitl [HΦ]; · iexact HΦ
  isplitl [Ho]; · iexact Ho
  unfold bodyPostIn bodyPostOut
  icases Hin with ⟨H0, H1, H2, H3, H4, H5, H6, H7⟩
  icases Hout with ⟨%d0, %d1, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists (outBlock ((dats m 0 c).fetched 0 t d0) ((dats m 0 c).fetched 1 t d1) (in2 m c t) (in3 m c t) (in4 m c t) (in5 m c t) (in6 m c t) (in7 m c t))
  rw [after_8, win0_8.fill_congr_cut (grid0.coords t) (hloc c t d0 d1)]
  iexact H8

/-- Which windows a frame proof forgets: the output. -/
abbrev fgtOut : Fin cfg0.W → Bool := fun | ⟨0, _⟩ => false | ⟨1, _⟩ => false | ⟨2, _⟩ => false | ⟨3, _⟩ => false | ⟨4, _⟩ => false | ⟨5, _⟩ => false | ⟨6, _⟩ => false | ⟨7, _⟩ => false | ⟨8, _⟩ => true | ⟨_ + 9, h⟩ => absurd h (Nat.not_lt.2 (Nat.le_add_left _ _))

/-- The obligation with the output forgotten: nothing is said of what the body leaves there. -/
theorem body_obligation_forget (c : Dev nD) :
    BodyObligationLoose (dats (F := F) m 0 c) (defs₀ (F := F)) Variants.none () Set.univ fgtOut := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, H0, H1, H2, H3, H4, H5, H6, H7, H8⟩
  iapply (sound_body m c t _)
  isplitl [H0 H1 H2 H3 H4 H5 H6 H7 H8]
  · unfold bodyPre
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro ⟨Hin, Hout⟩
  isplitl [HΦ]; · iexact HΦ
  isplitl [Ho]; · iexact Ho
  unfold bodyPostIn bodyPostOut
  icases Hin with ⟨H0, H1, H2, H3, H4, H5, H6, H7⟩
  icases Hout with ⟨%d0, %d1, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

end Cert.Kernel.Run

end
-- ==== Proof.FrameK.Launch.lean ====
/-
  (The word-level program: the same text as for its reading over the extended reals, of which only the frame is used.)
  The run of the whole program: host operations (a transposition, three reshapes), the pipelined region, a last
  transposition. The row array is read through two windows, so its points-to is split into two halves, one per
  window; every other array is held whole. After the region the last operation reads the output array and writes
  the result. Two runs: one naming every array's final contents (under the locality hypothesis), one forgetting the
  output, which holds at any float instance.
-/
import proofs.«152506_g49632642072955_cont_8to1_c_73_15_alg».proof.Proof.FrameK.Dats

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: every staging cell's owner and a token for every transfer the pipeline issues. -/
def u₀ : UR sig nD τ := initOf (Pipeline.cells cfgs cellOf_inj) (Pipeline.launchToks cfgs cellOf_inj)

abbrev EP : Emb (UR sig nD τ) (MT nD τ sig Unit (Elt F) ℕ (UR sig nD τ) ℕ) := emb₁

/-! ## The arrays at entry: the row array, read through two windows, is split between them -/

theorem hsplit (c : Dev nD) :
    (Pipeline.arrBufs spec0 c (V m c) : sProp 𝕄) ⊢ (dats m 0 c).arrays ((dats m 0 c).arrAt · 0) := by
  classical
  unfold Pipeline.arrBufs Dat.arrays
  rw [bigSep_eq_bigSepL_of_eq [main_arg0, main_arg1, main_v1, main_v0, main_v2, main_arg5, main_v3, main_v4] (by decide) (by decide), bigSep_W0]
  rw [show (bigSepL [main_arg0, main_arg1, main_v1, main_v0, main_v2, main_arg5, main_v3, main_v4] (fun b => (((c : Thread nD τ).loc b) ↦{fullShare} V m c b : sProp 𝕄)))
      = iprop((((c : Thread nD τ).loc main_arg0) ↦{fullShare} V m c main_arg0) ∗ (((c : Thread nD τ).loc main_arg1) ↦{fullShare} V m c main_arg1) ∗ (((c : Thread nD τ).loc main_v1) ↦{fullShare} V m c main_v1) ∗ (((c : Thread nD τ).loc main_v0) ↦{fullShare} V m c main_v0) ∗ (((c : Thread nD τ).loc main_v2) ↦{fullShare} V m c main_v2) ∗ (((c : Thread nD τ).loc main_arg5) ↦{fullShare} V m c main_arg5) ∗ (((c : Thread nD τ).loc main_v3) ↦{fullShare} V m c main_v3) ∗ (((c : Thread nD τ).loc main_v4) ↦{fullShare} V m c main_v4)) from rfl]
  iintro ⟨Ha0, Ha1, Hv1, Hv0, Hv2, Ha5, Hv3, Hv4⟩
  ihave H := (pointsTo_share (PosShare.mem_left_op_right fullShare)).1 $$ Ha0
  icases H with ⟨Hl, Hr⟩
  isplitl [Hl]
  · rw [(arr_whole0 0).set_eq_univ]; iexact Hl
  isplitl [Hr]
  · rw [(arr_whole0 1).set_eq_univ]; iexact Hr
  isplitl [Ha1]
  · rw [(arr_whole0 2).set_eq_univ]; iexact Ha1
  isplitl [Hv1]
  · rw [(arr_whole0 3).set_eq_univ]; iexact Hv1
  isplitl [Hv0]
  · rw [(arr_whole0 4).set_eq_univ]; iexact Hv0
  isplitl [Hv2]
  · rw [(arr_whole0 5).set_eq_univ]; iexact Hv2
  isplitl [Ha5]
  · rw [(arr_whole0 6).set_eq_univ]; iexact Ha5
  isplitl [Hv3]
  · rw [(arr_whole0 7).set_eq_univ]; iexact Hv3
  · rw [(arr_whole0 8).set_eq_univ]; iexact Hv4

/-! ## The host operation after the region -/

/-- The result: the region's output array, transposed. -/
def resultT (c : Dev nD) : (⟨S100000x64, .f32⟩ : BufTy).Contents (Elt F) :=
  transpose S100000x64 [1, 0] (((dats m 0 c).arrAt 8 cfg0.N : Buf (Elt F) ((cfg0.win 8).arr.view.loc (c : Thread nD τ))) : (⟨S64x100000, .f32⟩ : BufTy).Contents (Elt F)) transposes_S64x100000_S100000x64_1_0

/-- The buffers no window stages, after the program: the bias and second-weight arguments as the region found them,
    the result at the transposed output. -/
def Zfin (c : Dev nD) : sProp 𝕄 :=
  iprop((((c : Thread nD τ).loc main_arg2) ↦{fullShare} V m c main_arg2) ∗ (((c : Thread nD τ).loc main_arg3) ↦{fullShare} V m c main_arg3)
    ∗ (((c : Thread nD τ).loc main_arg4) ↦{fullShare} V m c main_arg4) ∗ (((c : Thread nD τ).loc main_arg6) ↦{fullShare} V m c main_arg6)
    ∗ (((c : Thread nD τ).loc main_v5) ↦{fullShare} resultT m c))

/-- The valuation the last host operation runs in: the output array at what the region left, the rest as found. -/
def Wtail (c : Dev nD) : Valuation τ sig (Elt F) :=
  Function.update (StableHlo.after ([hostOps0] : List (List (HloOp τ sig (Elt F)))).flatten (fun b => m (c, b)))
    (Proc.devRef .tc main_v4) ((dats m 0 c).arrAt 8 cfg0.N)

set_option backward.isDefEq.respectTransparency.types false in
theorem htail (𝒱₀ : Variants) (c : Dev nD) (Q' : PUnit → sProp 𝕄) :
    iprop((iprop((dats m 0 c).arrays ((dats m 0 c).arrAt · cfg0.N) ∗ Zfin m c) -∗ Q' ⟨⟩)
        ∗ boundary (c : Thread nD τ) ∗ (dats m 0 c).arrays ((dats m 0 c).arrAt · cfg0.N) ∗ Pipeline.unscopedRest spec0 c (V m c))
      ⊢ wp frame (wpE (Pipeline.defs (pcfgs (F := F)) defs₀) (Variants.lift 𝒱₀) (c : Thread nD τ) none) Set.univ
          (Pipeline.chain ([hostOps1].map StableHlo.seq)) Q' := by
  classical
  have hne : (Proc.devRef (τ := τ) .tc main_v4) ∉ ({Proc.devRef (τ := τ) .tc main_v5} : Finset (DevRef τ sig)) := by decide
  have hW4 : Wtail m c (Proc.devRef .tc main_v4) = (dats m 0 c).arrAt 8 cfg0.N := Function.update_self ..
  have hW5 : Wtail m c (Proc.devRef .tc main_v5) = V m c main_v5 := Function.update_of_ne (by decide) ..
  have hheld : ∀ W : Valuation τ sig (Elt F), (StableHlo.held (c : Thread nD τ) ({Proc.devRef .tc main_v4, Proc.devRef .tc main_v5} : Finset (DevRef τ sig)) W : sProp 𝕄)
      = iprop((((c : Thread nD τ).1, Proc.devRef .tc main_v4) ↦{fullShare} W (Proc.devRef .tc main_v4)) ∗ (((c : Thread nD τ).1, Proc.devRef .tc main_v5) ↦{fullShare} W (Proc.devRef .tc main_v5))) := fun W => by
    unfold StableHlo.held; rw [bigSep_insert hne, bigSep_singleton]; rfl
  unfold Dat.arrays Zfin
  rw [bigSep_W0, unscopedRest0_eq]
  iintro ⟨Hk, Hb, ⟨A0, A1, A2, A3, A4, A5, A6, A7, A8⟩, ⟨R2, R3, R4, R6, R5⟩⟩
  rw [← List.append_nil ([hostOps1].map StableHlo.seq)]
  iapply (Pipeline.wp_seqs_then (pcfgs (F := F)) defs₀ 𝒱₀ c ({Proc.devRef .tc main_v4, Proc.devRef .tc main_v5} : Finset (DevRef τ sig)) [] [hostOps1]
    (by intro ops ho op hop; rw [List.mem_singleton] at ho; subst ho; rw [List.mem_singleton] at hop; subst hop; exact subset_rfl)
    (by intro ops ho op hop; rw [List.mem_singleton] at ho; subst ho; rw [List.mem_singleton] at hop; subst hop; rfl)
    (Wtail m c)) $$ [Hb A8 R5]
  · isplitl [Hb]; · iexact Hb
    rw [hheld, hW4, hW5]
    isplitl [A8]
    · rw [(arr_whole0 8).set_eq_univ]; iexact A8
    · iexact R5
  rw [hheld, Pipeline.chain_nil, wp_pure]
  simp only [hostOps1, List.flatten_cons, List.flatten_nil, List.append_nil, StableHlo.after_cons, StableHlo.after_nil]
  rw [StableHlo.unary_result_ne main_v4 main_v5 _ _ _ _ (by decide : main_v4 ≠ main_v5), StableHlo.unary_result', hW4]
  iintro ⟨Hb, A8, R5⟩
  imodintro
  iapply Hk
  isplitl [A0 A1 A2 A3 A4 A5 A6 A7 A8]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    rw [(arr_whole0 8).set_eq_univ]; iexact A8
  isplitl [R2]; · iexact R2
  isplitl [R3]; · iexact R3
  isplitl [R4]; · iexact R4
  isplitl [R6]; · iexact R6
  iexact R5

/-! ## The run, the output's contents named -/

set_option backward.isDefEq.respectTransparency.types false in
/-- Under the hypothesis that lets the output be named exactly: every weakly fair execution terminates; each windowed
    array ends at what the write-backs leave, the result at the transposed output, the buffers no window stages as
    the region found them. -/
theorem run_main (hloc : OutLocal m) :
    θ_run defs (onTc (τ := τ) (main (F := F))) ⟨m, fun _ => 0, ρ⟩ (fun r => ∀ c : Dev nD,
      (∀ w, r.2.mem ((cfg0.win w).arr.view.loc (c : Thread nD τ)) = (dats m 0 c).arrAt w cfg0.N)
      ∧ r.2.mem ((c : Thread nD τ).loc main_arg2) = V m c main_arg2
      ∧ r.2.mem ((c : Thread nD τ).loc main_arg3) = V m c main_arg3
      ∧ r.2.mem ((c : Thread nD τ).loc main_arg4) = V m c main_arg4
      ∧ r.2.mem ((c : Thread nD τ).loc main_arg6) = V m c main_arg6
      ∧ r.2.mem ((c : Thread nD τ).loc main_v5) = resultT m c) :=
  Pipeline.θ_run_region_noSem_pf_tail (fun p => (cfgs p).toPCfg (Val := Elt F)) (fun p => (cfgs p).toPCfg_adm) (dats m) () cellOf_inj (0 : Fin 1)
    winFacts₀0 (Pipeline.PreFacts.none _) EP defs₀ Variants.none m ρ main (fun _ => Pipeline.chain ([hostOps1].map StableHlo.seq))
    (hbody := body_obligation m hloc) (hne := block_pos0) (harr := arr_whole0) (hstage := stage_whole0) (howed := fun _ _ => rfl)
    (u₀ := u₀) (hu₀ := BI.Entails.refl _) (V := V m) (hmain := hmain m Variants.none) (hsplit := hsplit m) (hpf := fun _ k => k.elim0)
    (X := fun _ => iprop(emp)) (Y := fun _ => iprop(emp)) (Z := fun c => Pipeline.unscopedRest spec0 c (V m c)) (Z' := Zfin m)
    (hX := fun c => by rw [Pipeline.unscopedRestP_none]; iintro H; isplitr; · iempintro
                       iexact H)
    (hin := fun c => by iintro -; iempintro)
    (hout := fun c => by rw [scopedRest0_eq]; iintro -; isplitr <;> iempintro)
    (htail := htail m Variants.none)
    (QY := fun c s => s.mem ((c : Thread nD τ).loc main_arg2) = V m c main_arg2
      ∧ s.mem ((c : Thread nD τ).loc main_arg3) = V m c main_arg3
      ∧ s.mem ((c : Thread nD τ).loc main_arg4) = V m c main_arg4
      ∧ s.mem ((c : Thread nD τ).loc main_arg6) = V m c main_arg6
      ∧ s.mem ((c : Thread nD τ).loc main_v5) = resultT m c)
    (hY := fun c s' => by
      unfold Zfin
      iintro ⟨-, ⟨R2, R3, R4, R6, R5⟩, HSI⟩
      icombine HSI R2 gives %h2
      icombine HSI R3 gives %h3
      icombine HSI R4 gives %h4
      icombine HSI R6 gives %h6
      icombine HSI R5 gives %h5
      imodintro
      isplitr
      · ipureintro
        exact ⟨Buf.eq_of_forall_mem_univ h2, Buf.eq_of_forall_mem_univ h3, Buf.eq_of_forall_mem_univ h4, Buf.eq_of_forall_mem_univ h6, Buf.eq_of_forall_mem_univ h5⟩
      iexact HSI)
    (hQ := fun s h c => ⟨(h c).1, (h c).2.2⟩)

/-! ## The run with the output forgotten: the frame at any float instance -/

/-- After the program, nothing said of the result. -/
def ZfinR (c : Dev nD) : sProp 𝕄 :=
  iprop((((c : Thread nD τ).loc main_arg2) ↦{fullShare} V m c main_arg2) ∗ (((c : Thread nD τ).loc main_arg3) ↦{fullShare} V m c main_arg3)
    ∗ (((c : Thread nD τ).loc main_arg4) ↦{fullShare} V m c main_arg4) ∗ (((c : Thread nD τ).loc main_arg6) ↦{fullShare} V m c main_arg6)
    ∗ (∃ G, ((c : Thread nD τ).loc main_v5) ↦{fullShare} G))

/-- The valuation the last host operation runs in when the output array holds `F8`. -/
def WtailAt (c : Dev nD) (F8 : Buf (Elt F) ((cfg0.win 8).arr.view.loc (c : Thread nD τ))) : Valuation τ sig (Elt F) :=
  Function.update (StableHlo.after ([hostOps0] : List (List (HloOp τ sig (Elt F)))).flatten (fun b => m (c, b)))
    (Proc.devRef .tc main_v4) F8

set_option backward.isDefEq.respectTransparency.types false in
theorem htailR (𝒱₀ : Variants) (c : Dev nD) (Q' : PUnit → sProp 𝕄) :
    iprop((iprop(((dats m 0 c).toRForget fgtOut).arraysAt cfg0.N ∗ ZfinR m c) -∗ Q' ⟨⟩)
        ∗ boundary (c : Thread nD τ) ∗ ((dats m 0 c).toRForget fgtOut).arraysAt cfg0.N ∗ Pipeline.unscopedRest spec0 c (V m c))
      ⊢ wp frame (wpE (Pipeline.defs (pcfgs (F := F)) defs₀) (Variants.lift 𝒱₀) (c : Thread nD τ) none) Set.univ
          (Pipeline.chain ([hostOps1].map StableHlo.seq)) Q' := by
  classical
  have hne : (Proc.devRef (τ := τ) .tc main_v4) ∉ ({Proc.devRef (τ := τ) .tc main_v5} : Finset (DevRef τ sig)) := by decide
  have hW4 : ∀ F8, WtailAt m c F8 (Proc.devRef .tc main_v4) = F8 := fun F8 => Function.update_self ..
  have hW5 : ∀ F8, WtailAt m c F8 (Proc.devRef .tc main_v5) = V m c main_v5 := fun F8 => Function.update_of_ne (by decide) ..
  have hheld : ∀ W : Valuation τ sig (Elt F), (StableHlo.held (c : Thread nD τ) ({Proc.devRef .tc main_v4, Proc.devRef .tc main_v5} : Finset (DevRef τ sig)) W : sProp 𝕄)
      = iprop((((c : Thread nD τ).1, Proc.devRef .tc main_v4) ↦{fullShare} W (Proc.devRef .tc main_v4)) ∗ (((c : Thread nD τ).1, Proc.devRef .tc main_v5) ↦{fullShare} W (Proc.devRef .tc main_v5))) := fun W => by
    unfold StableHlo.held; rw [bigSep_insert hne, bigSep_singleton]; rfl
  unfold Pipeline.RDat.arraysAt ZfinR
  rw [bigSep_W0, unscopedRest0_eq]
  iintro ⟨Hk, Hb, ⟨A0, A1, A2, A3, A4, A5, A6, A7, ⟨%F8, %hF8, A8⟩⟩, ⟨R2, R3, R4, R6, R5⟩⟩
  rw [← List.append_nil ([hostOps1].map StableHlo.seq)]
  iapply (Pipeline.wp_seqs_then (pcfgs (F := F)) defs₀ 𝒱₀ c ({Proc.devRef .tc main_v4, Proc.devRef .tc main_v5} : Finset (DevRef τ sig)) [] [hostOps1]
    (by intro ops ho op hop; rw [List.mem_singleton] at ho; subst ho; rw [List.mem_singleton] at hop; subst hop; exact subset_rfl)
    (by intro ops ho op hop; rw [List.mem_singleton] at ho; subst ho; rw [List.mem_singleton] at hop; subst hop; rfl)
    (WtailAt m c F8)) $$ [Hb A8 R5]
  · isplitl [Hb]; · iexact Hb
    rw [hheld, hW4, hW5]
    isplitl [A8]
    · rw [(arr_whole0 8).set_eq_univ]; iexact A8
    · iexact R5
  rw [hheld, Pipeline.chain_nil, wp_pure]
  simp only [hostOps1, List.flatten_cons, List.flatten_nil, List.append_nil, StableHlo.after_cons, StableHlo.after_nil]
  rw [StableHlo.unary_result_ne main_v4 main_v5 _ _ _ _ (by decide : main_v4 ≠ main_v5), hW4]
  iintro ⟨Hb, A8, R5⟩
  imodintro
  iapply Hk
  isplitl [A0 A1 A2 A3 A4 A5 A6 A7 A8]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexists F8; isplitr; · ipureintro; exact hF8
    rw [(arr_whole0 8).set_eq_univ]; iexact A8
  isplitl [R2]; · iexact R2
  isplitl [R3]; · iexact R3
  isplitl [R4]; · iexact R4
  isplitl [R6]; · iexact R6
  iexists _; iexact R5

set_option backward.isDefEq.respectTransparency.types false in
/-- At any float instance: every weakly fair execution terminates; each windowed array ends at contents the write-backs
    may leave (an input: as the region found it), the buffers no window stages and no later operation writes as found. -/
theorem run_frame :
    θ_run defs (onTc (τ := τ) (main (F := F))) ⟨m, fun _ => 0, ρ⟩ (fun r => ∀ c : Dev nD,
      (∀ w, ((dats m 0 c).toRForget fgtOut).ArrAt w cfg0.N (r.2.mem ((cfg0.win w).arr.view.loc (c : Thread nD τ))))
      ∧ r.2.mem ((c : Thread nD τ).loc main_arg2) = V m c main_arg2
      ∧ r.2.mem ((c : Thread nD τ).loc main_arg3) = V m c main_arg3
      ∧ r.2.mem ((c : Thread nD τ).loc main_arg4) = V m c main_arg4
      ∧ r.2.mem ((c : Thread nD τ).loc main_arg6) = V m c main_arg6) :=
  Pipeline.RDat.θ_run_region_pf_tail (fun p => (cfgs p).toPCfg (Val := Elt F)) (fun p => (cfgs p).toPCfg_adm) (fun p c => (dats m p c).toRForget fgtOut) () cellOf_inj (0 : Fin 1)
    winFacts₀0 (Pipeline.OwnSemFacts.none _) (Pipeline.PreFacts.none _) EP defs₀ Variants.none m ρ main (fun _ => Pipeline.chain ([hostOps1].map StableHlo.seq))
    (hbody := fun c => (body_obligation_forget m c).toRForget) (hne := block_pos0) (harr := arr_whole0) (hstage := stage_whole0) (howed := fun _ _ => rfl)
    (G := fun _ => BI.emp) (u₀ := u₀)
    (hu₀ := by
      have hu : (ownU u₀ : sProp 𝕄) ⊢ BI.own ((EP (F := F)) (initOf (Pipeline.cells cfgs cellOf_inj) (Pipeline.launchToks cfgs cellOf_inj))) := BI.Entails.refl _
      iintro Hu
      ihave H := hu $$ Hu
      imodintro
      isplitl [H]; · iexact H
      rw [BI.bigSep_emp_const]; iempintro)
    (V := V m) (hmain := hmain m Variants.none) (hsplit := hsplit m) (hpf := fun _ k => k.elim0)
    (X := fun _ => iprop(emp)) (Y := fun _ => iprop(emp)) (Z := fun c => Pipeline.unscopedRest spec0 c (V m c)) (Z' := ZfinR m)
    (hX := fun c => by
      rw [Pipeline.unscopedRestP_none]; iintro ⟨H, -⟩; imodintro; isplitr; · iempintro
      iexact H)
    (hin := fun c => by iintro -; iempintro)
    (hout := fun c => by
      rw [scopedRest0_eq, Pipeline.ownSems0_none]; iintro -; isplitr; · iempintro
      isplitr <;> iempintro)
    (htail := htailR m Variants.none)
    (QY := fun c s => s.mem ((c : Thread nD τ).loc main_arg2) = V m c main_arg2
      ∧ s.mem ((c : Thread nD τ).loc main_arg3) = V m c main_arg3
      ∧ s.mem ((c : Thread nD τ).loc main_arg4) = V m c main_arg4
      ∧ s.mem ((c : Thread nD τ).loc main_arg6) = V m c main_arg6)
    (hY := fun c s' => by
      unfold ZfinR
      iintro ⟨-, ⟨R2, R3, R4, R6, -⟩, HSI⟩
      icombine HSI R2 gives %h2
      icombine HSI R3 gives %h3
      icombine HSI R4 gives %h4
      icombine HSI R6 gives %h6
      imodintro
      isplitr
      · ipureintro
        exact ⟨Buf.eq_of_forall_mem_univ h2, Buf.eq_of_forall_mem_univ h3, Buf.eq_of_forall_mem_univ h4, Buf.eq_of_forall_mem_univ h6⟩
      iexact HSI)
    (hQ := fun s h c => ⟨(h c).1, (h c).2.2⟩)

end Cert.Kernel.Run

end
-- ==== Proof.FrameK.Claims.lean ====
/-
  (The word-level program: the same text as for its reading over the extended reals, of which only the frame is used.)
  The frame: the host operations before the region write only their own results, so the region finds the seven
  arguments as launched; no window's write-back and no later operation touches them.
-/
import proofs.«152506_g49632642072955_cont_8to1_c_73_15_alg».proof.Proof.FrameK.Launch

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them: the arguments untouched, the four host results -/

theorem V_arg0 (c : Dev nD) : V m c main_arg0 = m ((c : Thread nD τ).loc main_arg0) := by
  show StableHlo.after _ _ _ = _
  simp only [List.flatten_cons, List.flatten_nil, List.append_nil]
  after_results <;> rfl
theorem V_arg1 (c : Dev nD) : V m c main_arg1 = m ((c : Thread nD τ).loc main_arg1) := by
  show StableHlo.after _ _ _ = _
  simp only [List.flatten_cons, List.flatten_nil, List.append_nil]
  after_results <;> rfl
theorem V_arg2 (c : Dev nD) : V m c main_arg2 = m ((c : Thread nD τ).loc main_arg2) := by
  show StableHlo.after _ _ _ = _
  simp only [List.flatten_cons, List.flatten_nil, List.append_nil]
  after_results <;> rfl
theorem V_arg3 (c : Dev nD) : V m c main_arg3 = m ((c : Thread nD τ).loc main_arg3) := by
  show StableHlo.after _ _ _ = _
  simp only [List.flatten_cons, List.flatten_nil, List.append_nil]
  after_results <;> rfl
theorem V_arg4 (c : Dev nD) : V m c main_arg4 = m ((c : Thread nD τ).loc main_arg4) := by
  show StableHlo.after _ _ _ = _
  simp only [List.flatten_cons, List.flatten_nil, List.append_nil]
  after_results <;> rfl
theorem V_arg5 (c : Dev nD) : V m c main_arg5 = m ((c : Thread nD τ).loc main_arg5) := by
  show StableHlo.after _ _ _ = _
  simp only [List.flatten_cons, List.flatten_nil, List.append_nil]
  after_results <;> rfl
theorem V_arg6 (c : Dev nD) : V m c main_arg6 = m ((c : Thread nD τ).loc main_arg6) := by
  show StableHlo.after _ _ _ = _
  simp only [List.flatten_cons, List.flatten_nil, List.append_nil]
  after_results <;> rfl

/-! ## The frame, at any float instance -/

/-- Every weakly fair execution terminates and the seven arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run_frame m ρ)
  have h0 := (h c).1 0
  have h2 := (h c).1 2
  have h6 := (h c).1 6
  rw [Pipeline.RDat.ArrAt_in _ 0 rfl] at h0
  rw [Pipeline.RDat.ArrAt_in _ 2 rfl] at h2
  rw [Pipeline.RDat.ArrAt_in _ 6 rfl] at h6
  exact ⟨h0.trans ((A_eq m c 0).trans (V_arg0 m c)), h2.trans ((A_eq m c 2).trans (V_arg1 m c)),
    (h c).2.1.trans (V_arg2 m c), (h c).2.2.1.trans (V_arg3 m c), (h c).2.2.2.1.trans (V_arg4 m c),
    h6.trans ((A_eq m c 6).trans (V_arg5 m c)), (h c).2.2.2.2.trans (V_arg6 m c)⟩

end Cert.Kernel.Run

end
-- ==== Proof.Assembly.lean ====
/-
  The claims assembled: the kernel's result entry by entry, the two frames of the kernel, the reference's frame, and
  the equality of the two results over the extended reals.
-/
import proofs.«152506_g49632642072955_cont_8to1_c_73_15_alg».proof.Proof.HostValues
import proofs.«152506_g49632642072955_cont_8to1_c_73_15_alg».proof.Proof.BlocksToArray
import proofs.«152506_g49632642072955_cont_8to1_c_73_15_alg».proof.Proof.FrameK.Claims
import proofs.«152506_g49632642072955_cont_8to1_c_73_15_alg».proof.Proof.Gen.Pre_finite_inputs
import proofs.«152506_g49632642072955_cont_8to1_c_73_15_alg».proof.Defs

set_option maxRecDepth 16384

noncomputable section

namespace Cert.MLP.Glue

open Cert.KernelIdeal Cert.KernelIdeal.Gen Cert.KernelIdeal.Run
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The kernel's result, entry by entry: row `r` of the result is the three layers applied to row `r` of the input,
    with the weights and biases as launched. The output array holds it transposed (every column `r` written by the grid
    point that covers it), and the last host operation transposes it back. -/
theorem result_apply (c : Dev nD) (r : Fin 100000) (j : Fin 64) :
    (resultT m c : S100000x64.Idx → EReal) (ix2 r j)
      = rowMLP (fun k => (m ((c : Thread nD τ).loc main_arg0) : S100000x512.Idx → EReal) (ix2 r k))
          (fun k n => (m ((c : Thread nD τ).loc main_arg1) : S512x128.Idx → EReal) (ix2 k n))
          (fun n => (m ((c : Thread nD τ).loc main_arg2) : S128.Idx → EReal) (ix1 n))
          (fun k n => (m ((c : Thread nD τ).loc main_arg3) : S128x64.Idx → EReal) (ix2 k n))
          (fun n => (m ((c : Thread nD τ).loc main_arg4) : S64.Idx → EReal) (ix1 n))
          (fun k n => (m ((c : Thread nD τ).loc main_arg5) : S64x64.Idx → EReal) (ix2 k n))
          (fun n => (m ((c : Thread nD τ).loc main_arg6) : S64.Idx → EReal) (ix1 n)) j := by
  unfold resultT
  rw [Cert.MLP.host_transpose_out_apply, Cert.MLP.final8 m c, Cert.MLP.G8_apply m c j r]
  rw [V_arg0 m c, V_arg1 m c, V_arg5 m c, funext (V_v1_apply m c), funext (V_v2_apply m c), funext (V_v3_apply m c),
    (funext fun k => funext fun n => V_v0_apply m c n k : (fun (k : Fin 128) (n : Fin 64) => (V m c main_v0 : S64x128.Idx → EReal) (ix2 n k)) = _)]

/-- The kernel's run, its result named. -/
theorem kernel_run :
    θ_run defs (onTc (τ := τ) (main (F := Ideal))) ⟨m, fun _ => 0, ρ⟩ (fun r => ∀ c : Dev nD,
      r.2.mem ((c.tc : Thread nD τ).loc main_v5) = resultT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run_main m ρ (Cert.MLP.outLocal m))
  have h0 := ((h c).1 0).trans ((dats m 0 c).arrAt_in 0 rfl _)
  have h2 := ((h c).1 2).trans ((dats m 0 c).arrAt_in 2 rfl _)
  have h6 := ((h c).1 6).trans ((dats m 0 c).arrAt_in 6 rfl _)
  exact ⟨(h c).2.2.2.2.2, h0.trans ((A_eq m c 0).trans (V_arg0 m c)), h2.trans ((A_eq m c 2).trans (V_arg1 m c)),
    (h c).2.1.trans (V_arg2 m c), (h c).2.2.1.trans (V_arg3 m c), (h c).2.2.2.1.trans (V_arg4 m c),
    h6.trans ((A_eq m c 6).trans (V_arg5 m c)), (h c).2.2.2.2.1.trans (V_arg6 m c)⟩

end Cert.MLP.Glue

namespace Cert.Proof.Claims

open Idealize.ShloMosaic Idealize.ShloMosaic.TcCoe Idealize.ShloMosaic.ValueIdx
open Idealize.SL Idealize.SL.Sem

/-- The word-level kernel terminates, faults nowhere, and leaves its arguments unchanged. -/
theorem frame_k : Cert.frame_Kernel := fun m ρ _ => Cert.Kernel.Run.frame m ρ

/-- So does its reading over the extended reals. -/
theorem frame_ki : Cert.frame_KernelIdeal := fun m ρ _ => Cert.KernelIdeal.Run.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals the kernel and the reference compute one function: entry `(r, j)` of both results is the
    three-layer network applied to row `r` of the input — the same finite sums of the same products, the same maxima
    against zero — so no algebraic law and no finiteness is needed to identify them. -/
theorem algebraic : Cert.algebraic_KernelIdeal_ReferenceIdeal := by
  intro m ρ m' ρ' _ hagree
  refine ⟨fun c => Cert.KernelIdeal.Run.resultT m c, Cert.MLP.Glue.kernel_run m ρ, ?_⟩
  refine (θ_run Cert.ReferenceIdeal.defs _ _).mono (fun r h c => ⟨(h c).1.trans ?_, (h c).2⟩)
    (Cert.ReferenceIdeal.Value.run (F := Ideal) m' ρ')
  refine (Cert.ReferenceIdeal.Read.val_main_v13_eq _ _ _ _ _ _ _).trans ?_
  funext i
  obtain ⟨r, j, rfl⟩ : ∃ (r : Fin 100000) (j : Fin 64), i = ix2 r j := ⟨i 0, i 1, eq_ix2 i⟩
  rw [Cert.MLP.ref_apply]
  refine Eq.trans ?_ (Cert.MLP.Glue.result_apply m c r j).symm
  rw [(hagree c).1, (hagree c).2.1, (hagree c).2.2.1, (hagree c).2.2.2.1, (hagree c).2.2.2.2.1, (hagree c).2.2.2.2.2.1, (hagree c).2.2.2.2.2.2]

end Cert.Proof.Claims

end
-- ==== Proof.lean ====
/-
  A three-layer perceptron over 100000 rows of 512 features,

      out[r, :] = max(max(x[r, :] · W1 + b1, 0) · W2 + b2, 0) · W3 + b3        (W1 : 512 × 128, W2 : 128 × 64, W3 : 64 × 64),

  computed by one pipelined kernel against the same formula written as whole-array host operations.

  The kernel walks the rows in eight grid points of 12800 rows. The row array is staged through two windows, the even and
  the odd block of 6400 rows of each point; the weights and the biases (reshaped to single rows, the second weight
  transposed, by host operations before the region) are staged once. A point applies the three layers to its two
  row blocks and stores the two results, transposed, as the left and the right half of a 64 × 12800 output block; a host
  operation after the region transposes the 64 × 100000 output back. Since 8 · 12800 > 100000 the last point's second
  row block and its output block overhang their arrays: only their parts inside are transferred, and what a staging
  buffer holds beyond is not determined.

  Frames. The body is run once symbolically on whole staging buffers: it reads its eight inputs, leaves them as they
  were, and leaves in the output block a function of what they held (Frame/Body). Around it, the proof data names what
  each buffer holds at each point (an input: its block; Frame/Dats); the row array, handed to two windows, is held half
  and half (Frame/Launch), and the run follows from the launch rule for a region between host operations. At the word
  level nothing is claimed of what the kernel writes, so the output window is forgotten there and the frame needs no
  property of the arithmetic (FrameK is the same text over the word-level program). Over the extended reals an output
  entry (j, r) depends only on row r of its row block — a matrix product entry is the sum over the contracted index of
  products along that row — so the part of the output block inside the array does not depend on the undetermined rows
  (OutLocal), and the output array ends holding, column by column, the network applied to the matching input row
  (BlocksToArray): the eight blocks cover the 100000 columns.

  Value. Entry (r, j) of either result is  Σ_k3 max(Σ_k2 max(Σ_k1 x[r,k1]·W1[k1,k2] + b1[k2], 0)·W2[k2,k3] + b2[k3], 0)·W3[k3,j] + b3[j]
  (Spec): for the reference by reading its operations at an index (RefValue), for the kernel by reading the body's
  arithmetic at an index (KernelMatmul, KernelPayload, OutBlock) and the host operations around the region (HostGlue,
  HostValues). The two sides are literally the same sums of the same products and the same maxima with the zero word,
  so the claim needs no algebraic law on the extended reals and does not use the finiteness of the inputs.
  The idealization rewrote nothing, so its preservation claim is trivial.
-/
import proofs.«152506_g49632642072955_cont_8to1_c_73_15_alg».proof.Defs
import proofs.«152506_g49632642072955_cont_8to1_c_73_15_alg».proof.Proof.Gen.Kernel
import proofs.«152506_g49632642072955_cont_8to1_c_73_15_alg».proof.Proof.Gen.KernelIdeal
import proofs.«152506_g49632642072955_cont_8to1_c_73_15_alg».proof.Proof.Gen.ReferenceIdeal
import proofs.«152506_g49632642072955_cont_8to1_c_73_15_alg».proof.Proof.Gen.Pre_finite_inputs
import proofs.«152506_g49632642072955_cont_8to1_c_73_15_alg».proof.Proof.Assembly

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, trivial, Cert.Proof.Claims.algebraic⟩

end Cert.Proof

end
